-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x972 : Shape := ⟨2, ![100000, 972]⟩
abbrev S2x1600000 : Shape := ⟨2, ![2, 1600000]⟩
abbrev S2x1000000 : Shape := ⟨2, ![2, 1000000]⟩
abbrev S384x128 : Shape := ⟨2, ![384, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x972 : S_.BroadcastsInDim S100000x972 (![] : Fin 0 → Fin S100000x972.rank)
  reducesTo_S100000x972_S_d0_1 : S100000x972.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x972 .f32) (main_arg1 : IVec S2x1600000 32) (main_arg2 : IVec S2x1000000 32) (main_arg3 : FVec F S384x128 .f32) (main_arg4 : FVec F S128 .f32) (main_arg5 : FVec F S128x64 .f32) (main_arg6 : FVec F S64 .f32) : IVec S_ 1 :=
  let main_v0 : FVec F S100000x972 .f32 := Host.absf main_arg0
  let main_cst : FVec F S_ .f32 := constant S_ .f32 0x7F800000#32
  let main_v1 : FVec F S100000x972 .f32 := broadcastInDim S100000x972 ![] bcast_S_S100000x972 main_cst
  let main_v2 : IVec S100000x972 1 := cmpf .olt main_v0 main_v1
  let main_c : IVec S_ 1 := constantI S_ 1 1#1
  let main_v3 : IVec S_ 1 := (fun x v => Host.reduce IntOp.andi x v reducesTo_S100000x972_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x972 : Shape := ⟨2, ![100000, 972]⟩
abbrev S2x1600000 : Shape := ⟨2, ![2, 1600000]⟩
abbrev S2x1000000 : Shape := ⟨2, ![2, 1000000]⟩
abbrev S384x128 : Shape := ⟨2, ![384, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S972x128 : Shape := ⟨2, ![972, 128]⟩
abbrev S100000x128 : Shape := ⟨2, ![100000, 128]⟩
abbrev S2000x972 : Shape := ⟨2, ![2000, 972]⟩
abbrev S2000x1 : Shape := ⟨2, ![2000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 100
  | .vmem => 14
  | .smem => 0
  | _ => 0

abbrev bufTy : (tb : Table) → Fin (tcTables nBuf tb) → BufTy
  | .hbm, ⟨0, _⟩ => ⟨S100000x972, .f32⟩
  | .hbm, ⟨1, _⟩ => ⟨S2x1600000, .i32⟩
  | .hbm, ⟨2, _⟩ => ⟨S2x1000000, .i32⟩
  | .hbm, ⟨3, _⟩ => ⟨S384x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S_, .f32⟩
  | .hbm, ⟨31, _⟩ => ⟨S972x128, .f32⟩
  | .hbm, ⟨32, _⟩ => ⟨S100000x128, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x64, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S1x1000000, .i32⟩
  | .hbm, ⟨76, _⟩ => ⟨S1000000, .i32⟩
  | .hbm, ⟨77, _⟩ => ⟨S1x1000000, .i32⟩
  | .hbm, ⟨78, _⟩ => ⟨S1000000, .i32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000x64, .f32⟩
  | .hbm, ⟨88, _⟩ => ⟨S_, .i32⟩
  | .hbm, ⟨89, _⟩ => ⟨S1000000, .i32⟩
  | .hbm, ⟨90, _⟩ => ⟨S1000000, .i1⟩
  | .hbm, ⟨91, _⟩ => ⟨S_, .i32⟩
  | .hbm, ⟨92, _⟩ => ⟨S1000000, .i32⟩
  | .hbm, ⟨93, _⟩ => ⟨S1000000, .i32⟩
  | .hbm, ⟨94, _⟩ => ⟨S1000000, .i32⟩
  | .hbm, ⟨95, _⟩ => ⟨S1000000x1, .i32⟩
  | .hbm, ⟨96, _⟩ => ⟨S1000000x64, .f32⟩
  | .hbm, ⟨97, _⟩ => ⟨S1000000x64, .f32⟩
  | .hbm, ⟨98, _⟩ => ⟨S_, .f32⟩
  | .hbm, ⟨99, _⟩ => ⟨S1000000, .f32⟩
  | .local _ .vmem, ⟨0, _⟩ => ⟨S2000x972, .f32⟩
  | .local _ .vmem, ⟨1, _⟩ => ⟨S2000x972, .f32⟩
  | .local _ .vmem, ⟨2, _⟩ => ⟨S972x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S100000x972, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x972 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S972x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  pads_S384x128_S972x128_58800_000 : S384x128.Pads (![588, 0] : Fin 2 → Nat) ![0, 0] ![0, 0] S972x128
  h_S_ : 0 < S_.numel
  inb_S2000x972_S2000x972_0_0 : ∀ a, (![0, 0] : Fin 2 → Nat) a + S2000x972.size a ≤ S2000x972.size a
  h_S2000x972 : 0 < S2000x972.numel
  bitsLt_bf16_f32 : FTy.bits .bf16 < FTy.bits .f32
  inb_S972x128_S972x128_0_0 : ∀ a, (![0, 0] : Fin 2 → Nat) a + S972x128.size a ≤ S972x128.size a
  h_S972x128 : 0 < S972x128.numel
  shapeCasts_S972x128_S972x128 : S972x128.ShapeCasts S972x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  scatter_S100000_S1700000x1_S1700000_n_0_0_1_wf : ScatterDims.WF S100000 S1700000x1 S1700000 [] [0] [0] 1
  dot_S2000x972_S972x128_S2000x128_1_0_0_1_n_n_wf : DotDims.WF S2000x972 S972x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x972.size a ≤ S100000x972.size a
  hwx0_0 : ∀ i : grid0.Coords, EltTy.bits .f32 = 32 ∨ (Rect.block (s := S100000x972) S2000x972.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S972x128.size a ≤ S972x128.size a
  hwx0_1 : ∀ i : grid0.Coords, EltTy.bits .f32 = 32 ∨ (Rect.block (s := S972x128) S972x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x972_S972x128_S2000x128_1_0_0_1_n_n : DotDims S2000x972 S972x128 S2000x128 where
  lhsContracting := [1]
  rhsContracting := [0]
  lhsNonContracting := [0]
  rhsNonContracting := [1]
  lhsBatch := []
  rhsBatch := []
  wf := dot_S2000x972_S972x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S2000x972.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S972x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x972 : Shape := ⟨2, ![100000, 972]⟩
abbrev S2x1600000 : Shape := ⟨2, ![2, 1600000]⟩
abbrev S2x1000000 : Shape := ⟨2, ![2, 1000000]⟩
abbrev S384x128 : Shape := ⟨2, ![384, 128]⟩
abbrev S128 : Shape := ⟨1, ![128]⟩
abbrev S128x64 : Shape := ⟨2, ![128, 64]⟩
abbrev S64 : Shape := ⟨1, ![64]⟩
abbrev S100000x384 : Shape := ⟨2, ![100000, 384]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩

abbrev nBuf : Space → Nat
  | .hbm => 156
  | .vmem => 0
  | .smem => 0
  | _ => 0

abbrev hbmTy0_0 (i : Nat) : BufTy := match i % 128 with
  | 0 => ⟨S100000x972, .f32⟩
  | 1 => ⟨S2x1600000, .i32⟩
  | 2 => ⟨S2x1000000, .i32⟩
  | 3 => ⟨S384x128, .f32⟩
  | 4 => ⟨S128, .f32⟩
  | 5 => ⟨S128x64, .f32⟩
  | 6 => ⟨S64, .f32⟩
  | 7 => ⟨S100000x384, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000, .i32⟩
  | 72 => ⟨S1x1600000, .i32⟩
  | 73 => ⟨S1600000, .i32⟩
  | 74 => ⟨S1700000, .i32⟩
  | 75 => ⟨S1x1600000, .i32⟩
  | 76 => ⟨S1600000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x972, .f32⟩

abbrev hbmTy0_1 (i : Nat) : BufTy := match i % 128 with
  | 0 => ⟨S1x64, .f32⟩
  | 1 => ⟨S100000x64, .f32⟩
  | 2 => ⟨S100000x64, .f32⟩
  | 3 => ⟨S1x1000000, .i32⟩
  | 4 => ⟨S1000000, .i32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S1x1000000, .i32⟩
  | 15 => ⟨S1000000, .i32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S1000000x64, .f32⟩
  | 26 => ⟨S_, .f32⟩
  | 27 => ⟨S1000000, .f32⟩
  | _ => ⟨S100000x972, .f32⟩

abbrev hbmTy (i : Nat) : BufTy := match i / 128 with
  | 0 => hbmTy0_0 i
  | 1 => hbmTy0_1 i
  | _ => ⟨S100000x972, .f32⟩

abbrev bufTy : (tb : Table) → Fin (tcTables nBuf tb) → BufTy
  | .hbm, ⟨i, _⟩ => hbmTy i
  | _, _ => ⟨S100000x972, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_20 : Ref sig .tc := ⟨.hbm, 133, rfl⟩
abbrev main_v98 : Ref sig .tc := ⟨.hbm, 134, rfl⟩
abbrev main_v99 : Ref sig .tc := ⟨.hbm, 135, rfl⟩
abbrev main_c_21 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_22 : Ref sig .tc := ⟨.hbm, 144, rfl⟩
abbrev main_v107 : Ref sig .tc := ⟨.hbm, 145, rfl⟩
abbrev main_v108 : Ref sig .tc := ⟨.hbm, 146, rfl⟩
abbrev main_c_23 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩

abbrev nD : Nat := 1
abbrev τ : Topo := Topo.v7x

variable {F : FTy → Type} [FloatOps F]

class Facts₀ : Prop where
  slices_S100000x972_S100000x384_0_588 : S100000x972.Slices ![0, 588] S100000x384
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x64_S1000000_d1 : S1000000x64.ReducesTo [1] S1000000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x384_S384x128_S100000x128_1_0_0_1_n_n_wf : DotDims.WF S100000x384 S384x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1000000x1_S1000000x64_1_0_n_n_0_1_164_wf : GatherDims.WF S100000x64 S1000000x1 S1000000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.KernelRun.lean ====
/-
  The idealized kernel's run with its RESULT named. @main is nine segments: four stretches of host operations, the first
  pallas region, two stretches, the second region, a last stretch. The buffer contents at each boundary are a fold from
  the launch memory: a stretch applies its operations (`StableHlo.after`), a region leaves each of its arrays at what
  its write-backs fold to and every other buffer as entered. Every weakly fair execution terminates without a fault in a
  state where every buffer that outlives a kernel holds the last boundary's contents `W9`; read at the result buffer
  this names the result, read at an argument it gives back the launch contents (no operation or region writes one).
-/
import proofs.«134513_j51453708206756_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v71) = W9 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v71 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.Spec.lean ====
/-
  The one function both pallas regions compute, stated once over literal extents: a row-scaled matrix product.
  For `a : [N, K]`, `w : [K, D]` and a column `s : [N, 1]`, entry `(n, d)` is
  `(∑ q < K, a[n, q] · w[q, d]) · s[n, 0]` on the extended reals. Each grid point of a region writes one
  block of rows of this array; the blocks tile the rows, so the array after the region is this function of the
  three arrays the region found.
-/
import Idealize.ShloMosaic.PureOps.Ideal
import Idealize.ShloMosaic.Lib.ValueIdx

noncomputable section

open scoped BigOperators

namespace Cert.Bridge

open Idealize.ShloMosaic Idealize.ShloMosaic.ValueIdx

/-- Entry `(n, d)` of the row-scaled product: the inner product of row `n` of `a` with column `d` of `w`,
    times the row's scale `s[n, 0]`. -/
def scaledProduct {N K D : Nat} (a : (⟨2, ![N, K]⟩ : Shape).Idx → EReal) (w : (⟨2, ![K, D]⟩ : Shape).Idx → EReal)
    (s : (⟨2, ![N, 1]⟩ : Shape).Idx → EReal) : (⟨2, ![N, D]⟩ : Shape).Idx → EReal :=
  fun i => (∑ q : Fin K, a (ix2 (i 0 : Fin N) q) * w (ix2 q (i 1 : Fin D))) * s (ix2 (i 0 : Fin N) (0 : Fin 1))

theorem scaledProduct_apply {N K D : Nat} (a : (⟨2, ![N, K]⟩ : Shape).Idx → EReal) (w : (⟨2, ![K, D]⟩ : Shape).Idx → EReal)
    (s : (⟨2, ![N, 1]⟩ : Shape).Idx → EReal) (n : Fin N) (d : Fin D) :
    scaledProduct a w s (ix2 n d) = (∑ q : Fin K, a (ix2 n q) * w (ix2 q d)) * s (ix2 n (0 : Fin 1)) := rfl

/-- Every row of `a : [N, D]` multiplied by that row's entry of a vector `s : [N]`. -/
def scaleRows {N D : Nat} (a : (⟨2, ![N, D]⟩ : Shape).Idx → EReal) (s : (⟨1, ![N]⟩ : Shape).Idx → EReal) :
    (⟨2, ![N, D]⟩ : Shape).Idx → EReal :=
  fun p => a p * s (ix1 (p 0 : Fin N))

theorem scaleRows_apply {N D : Nat} (a : (⟨2, ![N, D]⟩ : Shape).Idx → EReal) (s : (⟨1, ![N]⟩ : Shape).Idx → EReal)
    (n : Fin N) (d : Fin D) : scaleRows a s (ix2 n d) = a (ix2 n d) * s (ix1 n) := rfl

end Cert.Bridge

end
-- ==== Proof.Layout.lean ====
/-
  Two layout facts both regions use.
  A column broadcast read at an index: a `[a, 1]` array broadcast along its unit axis to `[a, b]` holds, in
  every column, the operand's one column, so entry `(p, c)` of the result is entry `(p, 0)` of the operand.
  And the offsets of an access to a whole rank-2 buffer are zero on both axes.
-/
import Idealize.ShloMosaic.Lib.ValueLayout

namespace Cert.Bridge

open Idealize.ShloMosaic Idealize.ShloMosaic.ValueIdx

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The offset vector `(0, 0)` is the zero function on the two axes. -/
theorem zero_offsets : (![0, 0] : Fin 2 → Nat) = fun _ => 0 := funext fun a => by fin_cases a <;> rfl

end Cert.Bridge
-- ==== Proof.PayloadZero.lean ====
/-
  The body of the first region at one entry. Its arithmetic is one term over the three blocks it loads: both
  matrix operands narrowed to bf16 (the identity on the extended reals), their product accumulated into a zero
  block, and the result scaled row by row by the broadcast column. Read at entry `(p, d)` of the
  `[2000, 128]` block this is `(∑ q < 972, x0[p, q] · x1[q, d]) · x2[p, 0]`.
-/
import proofs.«134513_j51453708206756_2_alg».proof.Proof.Layout
import proofs.«134513_j51453708206756_2_alg».proof.Proof.Gen.KernelIdeal.Frame
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.SL.Sem Idealize.ShloMosaic.ValueIdx

/-- The contraction of the first region's product: rows of a `[2000, 972]` block against columns of a
    `[972, 128]` block, over the one shared axis of extent 972. -/
abbrev dot0 := dot_S2000x972_S972x128_S2000x128_1_0_0_1_n_n

/-- The left operand is read at the output's row … -/
theorem dot0_lhs0 (i : S2000x128.Idx) (q : dot0.contr.Idx) : (dot0.lhsIdx i q 0).val = (i 0).val := by
  unfold DotDims.lhsIdx
  rw [dif_neg (show ¬(0 : Fin S2000x972.rank) ∈ dot0.lhsBatch by decide), dif_pos (show (0 : Fin S2000x972.rank) ∈ dot0.lhsNonContracting by decide)]
  rfl
/-- … and the contraction index; -/
theorem dot0_lhs1 (i : S2000x128.Idx) (q : dot0.contr.Idx) : (dot0.lhsIdx i q 1).val = (q ⟨0, by decide⟩).val :=
  dot0.lhsIdx_val_of_single rfl i q
/-- the right operand at the contraction index … -/
theorem dot0_rhs0 (i : S2000x128.Idx) (q : dot0.contr.Idx) : (dot0.rhsIdx i q 0).val = (q ⟨0, by decide⟩).val :=
  dot0.rhsIdx_val_of_single rfl i q
/-- … and the output's column. -/
theorem dot0_rhs1 (i : S2000x128.Idx) (q : dot0.contr.Idx) : (dot0.rhsIdx i q 1).val = (i 1).val := by
  unfold DotDims.rhsIdx
  rw [dif_neg (show ¬(1 : Fin S972x128.rank) ∈ dot0.rhsBatch by decide), dif_pos (show (1 : Fin S972x128.rank) ∈ dot0.rhsNonContracting by decide)]
  rfl

/-- The product accumulated into the zero block, at entry `(p, d)`: the inner product of row `p` of the left
    operand with column `d` of the right one (the sum over the contraction index, re-indexed by its one
    coordinate). -/
theorem matmul0_apply (l : FVec Ideal S2000x972 .bf16) (r : FVec Ideal S972x128 .bf16) (p : Fin 2000) (d : Fin 128) :
    matmul dot0 none l r (constant S2000x128 .f32 0x00000000#32) (ix2 p d) = ∑ q : Fin 972, l (ix2 p q) * r (ix2 q d) := by
  refine (Ideal.matmul_constant_zero_apply dot0 none l r (ix2 p d)).trans ?_
  rw [← Equiv.sum_comp (contrEquiv1 dot0 972 rfl rfl).symm]
  refine Finset.sum_congr rfl fun k _ => ?_
  have hk := contrEquiv1_symm_val dot0 972 rfl rfl k
  have el : dot0.lhsIdx (ix2 p d) ((contrEquiv1 dot0 972 rfl rfl).symm k) = ix2 p k := funext fun a => Fin.ext (by
    match a with
    | ⟨0, _⟩ => exact dot0_lhs0 _ _
    | ⟨1, _⟩ => exact (dot0_lhs1 _ _).trans hk)
  have er : dot0.rhsIdx (ix2 p d) ((contrEquiv1 dot0 972 rfl rfl).symm k) = ix2 k d := funext fun a => Fin.ext (by
    match a with
    | ⟨0, _⟩ => exact (dot0_rhs0 _ _).trans hk
    | ⟨1, _⟩ => exact dot0_rhs1 _ _)
  rw [el, er]

/-- THE BODY AT AN ENTRY: the inner product of the row with the column, times the row's scale. The casts to
    the same shape are the identity, the narrowing to bf16 is the identity on extended reals, and the
    broadcast column reads the row's one entry. -/
theorem k0_pay1_apply (x0 : Vec Ideal S2000x972 .f32) (x1 : Vec Ideal S972x128 .f32) (x2 : Vec Ideal S2000x1 .f32)
    (p : Fin 2000) (d : Fin 128) :
    k0_pay1 (F := Ideal) x0 x1 x2 (ix2 p d) = (∑ q : Fin 972, x0 (ix2 p q) * x1 (ix2 q d)) * x2 (ix2 p (0 : Fin 1)) := by
  unfold k0_pay1
  rw [shapeCast_self, shapeCast_self]
  refine (mulf_apply _ _ (ix2 p d)).trans ?_
  refine congrArg₂ (· * ·) ((matmul0_apply _ _ p d).trans ?_) (Cert.Bridge.broadcastTo_a1_ab_apply (a := 2000) (b := 128) x2 _ p d)
  rfl

end Cert.KernelIdeal.RegionValue

end
-- ==== Proof.RegionZero.lean ====
/-
  The first region's output array. Each of the 50 grid points loads rows `2000·t … 2000·t + 1999` of the
  `[100000, 972]` operand and of the `[100000, 1]` scale column, the whole `[972, 128]` operand, and writes
  back rows `2000·t … 2000·t + 1999` of the `[100000, 128]` result; on those rows the body's value is the
  row-scaled product of the three arrays the region found. The 50 row blocks tile the result (row `r` lies in
  block `r / 2000`), so after the region the result array is the row-scaled product everywhere.
-/
import proofs.«134513_j51453708206756_2_alg».proof.Proof.Spec
import proofs.«134513_j51453708206756_2_alg».proof.Proof.PayloadZero
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The row-scaled product of the three arrays the first region finds. -/
abbrev product0 (c : Dev nD) : S100000x128.Idx → EReal :=
  Cert.Bridge.scaledProduct (N := 100000) (K := 972) (D := 128) (V c main_arg0) (V c main_v16) (V c main_v15)

/-- The block indices at point `t`, decided over the 50 points: the two row-blocked operands and the result
    are at row block `t`, the whole operand at block 0, and no window moves along the columns. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `2000·t …` of the array. -/
theorem lhs_block0 (c : Dev nD) (t : Fin cfg0.N) (x : S2000x972.Idx) (k : S100000x972.Idx)
    (hk0 : (k 0).val = t.val * 2000 + (x 0).val) (hk1 : (k 1).val = (x 1).val) :
    (iblk0 (F := Ideal) V c 0 t : Vec Ideal S2000x972 .f32) x = (V c main_arg0 : S100000x972.Idx → EReal) k := by
  obtain ⟨e0, e1, -⟩ := block_indices0 t
  unfold iblk0
  rw [View.read_apply]
  show (V c main_arg0 : S100000x972.Idx → EReal) _ = (V c main_arg0 : S100000x972.Idx → EReal) _
  refine congrArg (V c main_arg0 : S100000x972.Idx → EReal) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 972 + 1 * (x 1).val = (k 1).val; rw [e1, hk1]; omega

/-- The right operand's block at every point is the whole array. -/
theorem rhs_block0 (c : Dev nD) (t : Fin cfg0.N) (x : S972x128.Idx) :
    (iblk0 (F := Ideal) V c 1 t : Vec Ideal S972x128 .f32) x = (V c main_v16 : S972x128.Idx → EReal) x := by
  obtain ⟨-, -, e0, e1, -⟩ := block_indices0 t
  unfold iblk0
  rw [View.read_apply]
  show (V c main_v16 : S972x128.Idx → EReal) _ = (V c main_v16 : S972x128.Idx → EReal) _
  refine congrArg (V c main_v16 : S972x128.Idx → EReal) (funext fun a => Fin.ext ?_)
  match a with
  | ⟨0, _⟩ => show win0_1.index t (0 : Fin 2) * 972 + 1 * (x 0).val = (x 0).val; rw [e0]; omega
  | ⟨1, _⟩ => show win0_1.index t (1 : Fin 2) * 128 + 1 * (x 1).val = (x 1).val; rw [e1]; omega

/-- The scale column's block at point `t` is rows `2000·t …` of the column. -/
theorem scale_block0 (c : Dev nD) (t : Fin cfg0.N) (x : S2000x1.Idx) (k : S100000x1.Idx)
    (hk0 : (k 0).val = t.val * 2000 + (x 0).val) (hk1 : (k 1).val = (x 1).val) :
    (iblk0 (F := Ideal) V c 2 t : Vec Ideal S2000x1 .f32) x = (V c main_v15 : S100000x1.Idx → EReal) k := by
  obtain ⟨-, -, -, -, e0, e1, -⟩ := block_indices0 t
  unfold iblk0
  rw [View.read_apply]
  show (V c main_v15 : S100000x1.Idx → EReal) _ = (V c main_v15 : S100000x1.Idx → EReal) _
  refine congrArg (V c main_v15 : S100000x1.Idx → EReal) (funext fun a => Fin.ext ?_)
  match a with
  | ⟨0, _⟩ => show win0_2.index t (0 : Fin 2) * 2000 + 1 * (x 0).val = (k 0).val; rw [e0, hk0]; omega
  | ⟨1, _⟩ => show win0_2.index t (1 : Fin 2) * 1 + 1 * (x 1).val = (k 1).val; rw [e1, hk1]; omega

/-- The body's value at entry `(p, d)` of blocks that hold row `r` of the operands at their row `p` is entry
    `(r, d)` of the row-scaled product. -/
theorem body0_at (A : S100000x972.Idx → EReal) (W : S972x128.Idx → EReal) (s : S100000x1.Idx → EReal)
    (x0 : Vec Ideal S2000x972 .f32) (x1 : Vec Ideal S972x128 .f32) (x2 : Vec Ideal S2000x1 .f32)
    (r : Fin 100000) (p : Fin 2000) (d : Fin 128)
    (h0 : ∀ q : Fin 972, x0 (ix2 p q) = A (ix2 r q))
    (h1 : ∀ q : Fin 972, x1 (ix2 q d) = W (ix2 q d))
    (h2 : x2 (ix2 p (0 : Fin 1)) = s (ix2 r (0 : Fin 1))) :
    k0_pay1 (F := Ideal) x0 x1 x2 (ix2 p d)
      = Cert.Bridge.scaledProduct (N := 100000) (K := 972) (D := 128) A W s (ix2 r d) := by
  rw [k0_pay1_apply, Cert.Bridge.scaledProduct_apply, h2]
  exact congrArg (· * s (ix2 r (0 : Fin 1))) (Finset.sum_congr rfl fun q _ => by rw [h0 q, h1 q])

/-- WHAT POINT `t` WRITES BACK is block `t` of the row-scaled product. -/
theorem flushed0_eq (c : Dev nD) (t : Fin cfg0.N) :
    (dat0 (F := Ideal) V c).flushed 3 t = ((cfg0.win 3).blk t).view.read (Elt Ideal) (product0 V c) := by
  show (cfg0.win 3).cut (grid0.coords t) ((dat0 V c).after 3 t) = _
  rw [after0_3]
  unfold out0_3
  rw [View.canon_unit_zero Cert.Bridge.zero_offsets]
  simp only [View.ld_unit_zero (S := S2000x972) Cert.Bridge.zero_offsets, View.ld_unit_zero (S := S972x128) Cert.Bridge.zero_offsets,
    View.ld_unit_zero (S := S2000x1) Cert.Bridge.zero_offsets]
  obtain ⟨-, -, -, -, -, -, e0, e1⟩ := block_indices0 t
  have hN : cfg0.N = 50 := N_0
  have ht : t.val < 50 := hN ▸ t.isLt
  refine funext fun (j : S2000x128.Idx) => ?_
  obtain ⟨p, d, rfl⟩ : ∃ (p : Fin 2000) (d : Fin 128), j = ix2 p d := ⟨j 0, j 1, eq_ix2 j⟩
  have hp : p.val < 2000 := p.isLt
  rw [View.read_apply]
  show k0_pay1 (F := Ideal) (iblk0 V c 0 t) (iblk0 V c 1 t) (iblk0 V c 2 t) (ix2 p d)
    = product0 V c (((cfg0.win 3).blk t).view.emb (ix2 p d))
  have hemb : ((cfg0.win 3).blk t).view.emb (ix2 p d) = (ix2 (⟨t.val * 2000 + p.val, by omega⟩ : Fin 100000) d : S100000x128.Idx) :=
    funext fun a => Fin.ext (by
      match a with
      | ⟨0, _⟩ => show win0_3.index t (0 : Fin 2) * 2000 + 1 * p.val = t.val * 2000 + p.val; rw [e0]; omega
      | ⟨1, _⟩ => show win0_3.index t (1 : Fin 2) * 128 + 1 * d.val = d.val; rw [e1]; omega)
  rw [hemb]
  exact body0_at (V c main_arg0) (V c main_v16) (V c main_v15) (iblk0 V c 0 t) (iblk0 V c 1 t) (iblk0 V c 2 t)
    ⟨t.val * 2000 + p.val, by omega⟩ p d
    (fun q => lhs_block0 V c t (ix2 p q) (ix2 ⟨t.val * 2000 + p.val, by omega⟩ q) rfl rfl)
    (fun q => rhs_block0 V c t (ix2 q d))
    (scale_block0 V c t (ix2 p (0 : Fin 1)) (ix2 ⟨t.val * 2000 + p.val, by omega⟩ (0 : Fin 1)) rfl rfl)

/-- An index of the result is in point `t`'s block iff each coordinate is in the block's range on its axis. -/
theorem mem_block0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v17).slice (win0_3.rect t)).set ↔ _
  rw [View.set_slice_whole, Rect.mem_set_unit]
  exact Iff.rfl

/-- The row blocks tile the result: row `r` lies in the block of point `r / 2000`. -/
theorem cover0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e0, e1⟩ := block_indices0 t
  refine ⟨t, flush0_3 t, ?_⟩
  rw [mem_block0]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 128 ≤ (i 1).val ∧ (i 1).val < win0_3.index t (1 : Fin 2) * 128 + 128
    rw [e1]; omega

/-- THE RESULT ARRAY after the first region: the row-scaled product of the three arrays the region found. -/
theorem region0_array (c : Dev nD) :
    ((dat0 (F := Ideal) V c).arrAt 3 cfg0.N : S100000x128.Idx → EReal)
      = Cert.Bridge.scaledProduct (N := 100000) (K := 972) (D := 128) (V c main_arg0) (V c main_v16) (V c main_v15) :=
  (dat0 (F := Ideal) V c).arrAt_eq_of_cover 3 (product0 V c) (fun t _ => flushed0_eq V c t) cover0

end Cert.KernelIdeal.RegionValue

end
-- ==== Proof.PayloadOne.lean ====
/-
  The body of the second region at one entry. Its arithmetic is one term over the three blocks it loads: both
  matrix operands narrowed to bf16 (the identity on the extended reals), their product accumulated into a zero
  block, and the result scaled row by row by the broadcast column. Read at entry `(p, d)` of the
  `[5000, 64]` block this is `(∑ q < 128, x0[p, q] · x1[q, d]) · x2[p, 0]`.
-/
import proofs.«134513_j51453708206756_2_alg».proof.Proof.Layout
import proofs.«134513_j51453708206756_2_alg».proof.Proof.Gen.KernelIdeal.Frame
import Idealize.ShloMosaic.PureOps.Ideal.Laws
import Idealize.ShloMosaic.Lib.ValueLayout

noncomputable section

open scoped BigOperators

namespace Cert.KernelIdeal.RegionValue

open Cert.KernelIdeal Cert.KernelIdeal.Gen Idealize.ShloMosaic Idealize.SL.Sem Idealize.ShloMosaic.ValueIdx

/-- The contraction of the second region's product: rows of a `[5000, 128]` block against columns of a
    `[128, 64]` block, over the one shared axis of extent 128. -/
abbrev dot1 := dot_S5000x128_S128x64_S5000x64_1_0_0_1_n_n

/-- The left operand is read at the output's row … -/
theorem dot1_lhs0 (i : S5000x64.Idx) (q : dot1.contr.Idx) : (dot1.lhsIdx i q 0).val = (i 0).val := by
  unfold DotDims.lhsIdx
  rw [dif_neg (show ¬(0 : Fin S5000x128.rank) ∈ dot1.lhsBatch by decide), dif_pos (show (0 : Fin S5000x128.rank) ∈ dot1.lhsNonContracting by decide)]
  rfl
/-- … and the contraction index; -/
theorem dot1_lhs1 (i : S5000x64.Idx) (q : dot1.contr.Idx) : (dot1.lhsIdx i q 1).val = (q ⟨0, by decide⟩).val :=
  dot1.lhsIdx_val_of_single rfl i q
/-- the right operand at the contraction index … -/
theorem dot1_rhs0 (i : S5000x64.Idx) (q : dot1.contr.Idx) : (dot1.rhsIdx i q 0).val = (q ⟨0, by decide⟩).val :=
  dot1.rhsIdx_val_of_single rfl i q
/-- … and the output's column. -/
theorem dot1_rhs1 (i : S5000x64.Idx) (q : dot1.contr.Idx) : (dot1.rhsIdx i q 1).val = (i 1).val := by
  unfold DotDims.rhsIdx
  rw [dif_neg (show ¬(1 : Fin S128x64.rank) ∈ dot1.rhsBatch by decide), dif_pos (show (1 : Fin S128x64.rank) ∈ dot1.rhsNonContracting by decide)]
  rfl

/-- The product accumulated into the zero block, at entry `(p, d)`: the inner product of row `p` of the left
    operand with column `d` of the right one (the sum over the contraction index, re-indexed by its one
    coordinate). -/
theorem matmul1_apply (l : FVec Ideal S5000x128 .bf16) (r : FVec Ideal S128x64 .bf16) (p : Fin 5000) (d : Fin 64) :
    matmul dot1 none l r (constant S5000x64 .f32 0x00000000#32) (ix2 p d) = ∑ q : Fin 128, l (ix2 p q) * r (ix2 q d) := by
  refine (Ideal.matmul_constant_zero_apply dot1 none l r (ix2 p d)).trans ?_
  rw [← Equiv.sum_comp (contrEquiv1 dot1 128 rfl rfl).symm]
  refine Finset.sum_congr rfl fun k _ => ?_
  have hk := contrEquiv1_symm_val dot1 128 rfl rfl k
  have el : dot1.lhsIdx (ix2 p d) ((contrEquiv1 dot1 128 rfl rfl).symm k) = ix2 p k := funext fun a => Fin.ext (by
    match a with
    | ⟨0, _⟩ => exact dot1_lhs0 _ _
    | ⟨1, _⟩ => exact (dot1_lhs1 _ _).trans hk)
  have er : dot1.rhsIdx (ix2 p d) ((contrEquiv1 dot1 128 rfl rfl).symm k) = ix2 k d := funext fun a => Fin.ext (by
    match a with
    | ⟨0, _⟩ => exact (dot1_rhs0 _ _).trans hk
    | ⟨1, _⟩ => exact dot1_rhs1 _ _)
  rw [el, er]

/-- THE BODY AT AN ENTRY: the inner product of the row with the column, times the row's scale. The casts to
    the same shape are the identity, the narrowing to bf16 is the identity on extended reals, and the
    broadcast column reads the row's one entry. -/
theorem k1_pay1_apply (x0 : Vec Ideal S5000x128 .f32) (x1 : Vec Ideal S128x64 .f32) (x2 : Vec Ideal S5000x1 .f32)
    (p : Fin 5000) (d : Fin 64) :
    k1_pay1 (F := Ideal) x0 x1 x2 (ix2 p d) = (∑ q : Fin 128, x0 (ix2 p q) * x1 (ix2 q d)) * x2 (ix2 p (0 : Fin 1)) := by
  unfold k1_pay1
  rw [shapeCast_self, shapeCast_self]
  refine (mulf_apply _ _ (ix2 p d)).trans ?_
  refine congrArg₂ (· * ·) ((matmul1_apply _ _ p d).trans ?_) (Cert.Bridge.broadcastTo_a1_ab_apply (a := 5000) (b := 64) x2 _ p d)
  rfl

end Cert.KernelIdeal.RegionValue

end
-- ==== Proof.RegionOne.lean ====
/-
  The second region's output array. Each of the 20 grid points loads rows `5000·t … 5000·t + 4999` of the
  `[100000, 128]` operand and of the `[100000, 1]` scale column, the whole `[128, 64]` operand, and writes
  back rows `5000·t … 5000·t + 4999` of the `[100000, 64]` result; on those rows the body's value is the
  row-scaled product of the three arrays the region found. The 20 row blocks tile the result (row `r` lies in
  block `r / 5000`), so after the region the result array is the row-scaled product everywhere.
-/
import proofs.«134513_j51453708206756_2_alg».proof.Proof.Spec
import proofs.«134513_j51453708206756_2_alg».proof.Proof.PayloadOne
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The row-scaled product of the three arrays the second region finds. -/
abbrev product1 (c : Dev nD) : S100000x64.Idx → EReal :=
  Cert.Bridge.scaledProduct (N := 100000) (K := 128) (D := 64) (V c main_v34) (V c main_arg5) (V c main_v15)

/-- The block indices at point `t`, decided over the 20 points: the two row-blocked operands and the result
    are at row block `t`, the whole operand at block 0, and no window moves along the columns. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The left operand's block at point `t` is rows `5000·t …` of the array. -/
theorem lhs_block1 (c : Dev nD) (t : Fin cfg1.N) (x : S5000x128.Idx) (k : S100000x128.Idx)
    (hk0 : (k 0).val = t.val * 5000 + (x 0).val) (hk1 : (k 1).val = (x 1).val) :
    (iblk1 (F := Ideal) V c 0 t : Vec Ideal S5000x128 .f32) x = (V c main_v34 : S100000x128.Idx → EReal) k := by
  obtain ⟨e0, e1, -⟩ := block_indices1 t
  unfold iblk1
  rw [View.read_apply]
  show (V c main_v34 : S100000x128.Idx → EReal) _ = (V c main_v34 : S100000x128.Idx → EReal) _
  refine congrArg (V c main_v34 : S100000x128.Idx → EReal) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The right operand's block at every point is the whole array. -/
theorem rhs_block1 (c : Dev nD) (t : Fin cfg1.N) (x : S128x64.Idx) :
    (iblk1 (F := Ideal) V c 1 t : Vec Ideal S128x64 .f32) x = (V c main_arg5 : S128x64.Idx → EReal) x := by
  obtain ⟨-, -, e0, e1, -⟩ := block_indices1 t
  unfold iblk1
  rw [View.read_apply]
  show (V c main_arg5 : S128x64.Idx → EReal) _ = (V c main_arg5 : S128x64.Idx → EReal) _
  refine congrArg (V c main_arg5 : S128x64.Idx → EReal) (funext fun a => Fin.ext ?_)
  match a with
  | ⟨0, _⟩ => show win1_1.index t (0 : Fin 2) * 128 + 1 * (x 0).val = (x 0).val; rw [e0]; omega
  | ⟨1, _⟩ => show win1_1.index t (1 : Fin 2) * 64 + 1 * (x 1).val = (x 1).val; rw [e1]; omega

/-- The scale column's block at point `t` is rows `5000·t …` of the column. -/
theorem scale_block1 (c : Dev nD) (t : Fin cfg1.N) (x : S5000x1.Idx) (k : S100000x1.Idx)
    (hk0 : (k 0).val = t.val * 5000 + (x 0).val) (hk1 : (k 1).val = (x 1).val) :
    (iblk1 (F := Ideal) V c 2 t : Vec Ideal S5000x1 .f32) x = (V c main_v15 : S100000x1.Idx → EReal) k := by
  obtain ⟨-, -, -, -, e0, e1, -⟩ := block_indices1 t
  unfold iblk1
  rw [View.read_apply]
  show (V c main_v15 : S100000x1.Idx → EReal) _ = (V c main_v15 : S100000x1.Idx → EReal) _
  refine congrArg (V c main_v15 : S100000x1.Idx → EReal) (funext fun a => Fin.ext ?_)
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- The body's value at entry `(p, d)` of blocks that hold row `r` of the operands at their row `p` is entry
    `(r, d)` of the row-scaled product. -/
theorem body1_at (A : S100000x128.Idx → EReal) (W : S128x64.Idx → EReal) (s : S100000x1.Idx → EReal)
    (x0 : Vec Ideal S5000x128 .f32) (x1 : Vec Ideal S128x64 .f32) (x2 : Vec Ideal S5000x1 .f32)
    (r : Fin 100000) (p : Fin 5000) (d : Fin 64)
    (h0 : ∀ q : Fin 128, x0 (ix2 p q) = A (ix2 r q))
    (h1 : ∀ q : Fin 128, x1 (ix2 q d) = W (ix2 q d))
    (h2 : x2 (ix2 p (0 : Fin 1)) = s (ix2 r (0 : Fin 1))) :
    k1_pay1 (F := Ideal) x0 x1 x2 (ix2 p d)
      = Cert.Bridge.scaledProduct (N := 100000) (K := 128) (D := 64) A W s (ix2 r d) := by
  rw [k1_pay1_apply, Cert.Bridge.scaledProduct_apply, h2]
  exact congrArg (· * s (ix2 r (0 : Fin 1))) (Finset.sum_congr rfl fun q _ => by rw [h0 q, h1 q])

/-- WHAT POINT `t` WRITES BACK is block `t` of the row-scaled product. -/
theorem flushed1_eq (c : Dev nD) (t : Fin cfg1.N) :
    (dat1 (F := Ideal) V c).flushed 3 t = ((cfg1.win 3).blk t).view.read (Elt Ideal) (product1 V c) := by
  show (cfg1.win 3).cut (grid1.coords t) ((dat1 V c).after 3 t) = _
  rw [after1_3]
  unfold out1_3
  rw [View.canon_unit_zero Cert.Bridge.zero_offsets]
  simp only [View.ld_unit_zero (S := S5000x128) Cert.Bridge.zero_offsets, View.ld_unit_zero (S := S128x64) Cert.Bridge.zero_offsets,
    View.ld_unit_zero (S := S5000x1) Cert.Bridge.zero_offsets]
  obtain ⟨-, -, -, -, -, -, e0, e1⟩ := block_indices1 t
  have hN : cfg1.N = 20 := N_1
  have ht : t.val < 20 := hN ▸ t.isLt
  refine funext fun (j : S5000x64.Idx) => ?_
  obtain ⟨p, d, rfl⟩ : ∃ (p : Fin 5000) (d : Fin 64), j = ix2 p d := ⟨j 0, j 1, eq_ix2 j⟩
  have hp : p.val < 5000 := p.isLt
  rw [View.read_apply]
  show k1_pay1 (F := Ideal) (iblk1 V c 0 t) (iblk1 V c 1 t) (iblk1 V c 2 t) (ix2 p d)
    = product1 V c (((cfg1.win 3).blk t).view.emb (ix2 p d))
  have hemb : ((cfg1.win 3).blk t).view.emb (ix2 p d) = (ix2 (⟨t.val * 5000 + p.val, by omega⟩ : Fin 100000) d : S100000x64.Idx) :=
    funext fun a => Fin.ext (by
      match a with
      | ⟨0, _⟩ => show win1_3.index t (0 : Fin 2) * 5000 + 1 * p.val = t.val * 5000 + p.val; rw [e0]; omega
      | ⟨1, _⟩ => show win1_3.index t (1 : Fin 2) * 64 + 1 * d.val = d.val; rw [e1]; omega)
  rw [hemb]
  exact body1_at (V c main_v34) (V c main_arg5) (V c main_v15) (iblk1 V c 0 t) (iblk1 V c 1 t) (iblk1 V c 2 t)
    ⟨t.val * 5000 + p.val, by omega⟩ p d
    (fun q => lhs_block1 V c t (ix2 p q) (ix2 ⟨t.val * 5000 + p.val, by omega⟩ q) rfl rfl)
    (fun q => rhs_block1 V c t (ix2 q d))
    (scale_block1 V c t (ix2 p (0 : Fin 1)) (ix2 ⟨t.val * 5000 + p.val, by omega⟩ (0 : Fin 1)) rfl rfl)

/-- An index of the result is in point `t`'s block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v35).slice (win1_3.rect t)).set ↔ _
  rw [View.set_slice_whole, Rect.mem_set_unit]
  exact Iff.rfl

/-- The row blocks tile the result: row `r` lies in the block of point `r / 5000`. -/
theorem cover1 (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e0, e1⟩ := block_indices1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 64 ≤ (i 1).val ∧ (i 1).val < win1_3.index t (1 : Fin 2) * 64 + 64
    rw [e1]; omega

/-- THE RESULT ARRAY after the second region: the row-scaled product of the three arrays the region found. -/
theorem region1_array (c : Dev nD) :
    ((dat1 (F := Ideal) V c).arrAt 3 cfg1.N : S100000x64.Idx → EReal)
      = Cert.Bridge.scaledProduct (N := 100000) (K := 128) (D := 64) (V c main_v34) (V c main_arg5) (V c main_v15) :=
  (dat1 (F := Ideal) V c).arrAt_eq_of_cover 3 (product1 V c) (fun t _ => flushed1_eq V c t) cover1

end Cert.KernelIdeal.RegionValue

end
-- ==== Proof.KernelWalk.lean ====
/-
  What the buffers read downstream hold at each pallas region's exit, in terms of the contents at its entry.
  A region leaves its output array at the row-scaled product of the three arrays it found (the region's value), and every
  buffer that is not one of its arrays as it was; the host stretch before the first region writes the reshaped normalisation
  column.
-/
import proofs.«134513_j51453708206756_2_alg».proof.Proof.Gen.KernelIdeal.Frame
import proofs.«134513_j51453708206756_2_alg».proof.Proof.RegionZero
import proofs.«134513_j51453708206756_2_alg».proof.Proof.RegionOne
import Idealize.ShloMosaic.PureOps.Ideal

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-- Finishes what a `simp` pass over a fold of host operations leaves under the dependent pairs of a `concatenate`'s operand
    list: each operation's result read at its own buffer is its function's value, at any other buffer what was there. -/
macro "results_under_pairs" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (m : (ℓ : Loc nD τ sig) → Buf (Elt Ideal) ℓ) (ρ : Dev nD → PrngReg) (c : Dev nD)

/-! ## The two outlined functions, over any contents -/

/-- `where(mask, x, 0)` as the three operations it was outlined to, over any buffer contents. -/
theorem where_out (V : Valuation τ sig (Elt Ideal)) :
    StableHlo.after (hostOps0_1 (F := Ideal)) V (Proc.devRef .tc main_v14)
      = select (V (Proc.devRef .tc main_v12)) (V (Proc.devRef .tc main_v13))
          (broadcastInDim S100000 ![] bcast_S_S100000 (id (V (Proc.devRef .tc main_cst_2)))) := by
  after_results
  rfl

/-- `relu` as the three operations it was outlined to, over any buffer contents. -/
theorem relu_out (V : Valuation τ sig (Elt Ideal)) :
    StableHlo.after (hostOps1_1 (F := Ideal)) V (Proc.devRef .tc main_v34)
      = maximumf (V (Proc.devRef .tc main_v33))
          (broadcastInDim S100000x128 ![] bcast_S_S100000x128 (constant (F := Ideal) S_ .f32 0x00000000#32)) := by
  after_results
  rfl

/-! ## The second region's exit -/

theorem exit1_out : W8 m ρ c (Proc.devRef .tc main_v35)
    = Cert.Bridge.scaledProduct (N := 100000) (K := 128) (D := 64) (W7 m ρ c (Proc.devRef .tc main_v34))
        (W7 m ρ c (Proc.devRef .tc main_arg5)) (W7 m ρ c (Proc.devRef .tc main_v15)) :=
  (W8_arr m ρ c 3).trans (RegionValue.region1_array (V7 m ρ) c)
theorem exit1_v3 : W8 m ρ c (Proc.devRef .tc main_v3) = W7 m ρ c (Proc.devRef .tc main_v3) := W8_of_ne m ρ c main_v3 (by decide)
theorem exit1_v6 : W8 m ρ c (Proc.devRef .tc main_v6) = W7 m ρ c (Proc.devRef .tc main_v6) := W8_of_ne m ρ c main_v6 (by decide)
theorem exit1_v14 : W8 m ρ c (Proc.devRef .tc main_v14) = W7 m ρ c (Proc.devRef .tc main_v14) := W8_of_ne m ρ c main_v14 (by decide)
theorem exit1_arg6 : W8 m ρ c (Proc.devRef .tc main_arg6) = W7 m ρ c (Proc.devRef .tc main_arg6) := W8_of_ne m ρ c main_arg6 (by decide)
theorem exit1_arg2 : W8 m ρ c (Proc.devRef .tc main_arg2) = W7 m ρ c (Proc.devRef .tc main_arg2) := W8_of_ne m ρ c main_arg2 (by decide)

/-- The second region's left operand is the `relu` of the first layer's output. -/
theorem mid_v34 : W7 m ρ c (Proc.devRef .tc main_v34)
    = maximumf (W6 m ρ c (Proc.devRef .tc main_v33))
        (broadcastInDim S100000x128 ![] bcast_S_S100000x128 (constant (F := Ideal) S_ .f32 0x00000000#32)) :=
  relu_out (W6 m ρ c)

/-! ## The first region's exit -/

theorem exit0_out : W5 m ρ c (Proc.devRef .tc main_v17)
    = Cert.Bridge.scaledProduct (N := 100000) (K := 972) (D := 128) (W4 m ρ c (Proc.devRef .tc main_arg0))
        (W4 m ρ c (Proc.devRef .tc main_v16)) (W4 m ρ c (Proc.devRef .tc main_v15)) :=
  (W5_arr m ρ c 3).trans (RegionValue.region0_array (V4 m ρ) c)
theorem exit0_v3 : W5 m ρ c (Proc.devRef .tc main_v3) = W4 m ρ c (Proc.devRef .tc main_v3) := W5_of_ne m ρ c main_v3 (by decide)
theorem exit0_v6 : W5 m ρ c (Proc.devRef .tc main_v6) = W4 m ρ c (Proc.devRef .tc main_v6) := W5_of_ne m ρ c main_v6 (by decide)
theorem exit0_v14 : W5 m ρ c (Proc.devRef .tc main_v14) = W4 m ρ c (Proc.devRef .tc main_v14) := W5_of_ne m ρ c main_v14 (by decide)
theorem exit0_arg2 : W5 m ρ c (Proc.devRef .tc main_arg2) = W4 m ρ c (Proc.devRef .tc main_arg2) := W5_of_ne m ρ c main_arg2 (by decide)
theorem exit0_arg4 : W5 m ρ c (Proc.devRef .tc main_arg4) = W4 m ρ c (Proc.devRef .tc main_arg4) := W5_of_ne m ρ c main_arg4 (by decide)
theorem exit0_arg6 : W5 m ρ c (Proc.devRef .tc main_arg6) = W4 m ρ c (Proc.devRef .tc main_arg6) := W5_of_ne m ρ c main_arg6 (by decide)
theorem exit0_arg5 : W5 m ρ c (Proc.devRef .tc main_arg5) = W4 m ρ c (Proc.devRef .tc main_arg5) := W5_of_ne m ρ c main_arg5 (by decide)
/-- The normalisation column is an array of the first region too (an input it only reads): an input array ends as found. -/
theorem exit0_v15 : W5 m ρ c (Proc.devRef .tc main_v15) = W4 m ρ c (Proc.devRef .tc main_v15) :=
  (W5_arr m ρ c 2).trans (((dat0 (V4 m ρ) c).arrAt_in 2 rfl _).trans (A_eq0 (V4 m ρ) c 2))

/-- The normalisation column the regions read is the normalisation vector reshaped `[N] → [N, 1]`. -/
theorem entry_v15 : W4 m ρ c (Proc.devRef .tc main_v15)
    = shapeCast S100000x1 (W2 m ρ c (Proc.devRef .tc main_v14)) shapeCasts_S100000_S100000x1 := by
  show StableHlo.after hostOps0_3 (StableHlo.after hostOps0_2 (W2 m ρ c)) (Proc.devRef .tc main_v15)
    = shapeCast S100000x1 (W2 m ρ c (Proc.devRef .tc main_v14)) shapeCasts_S100000_S100000x1
  generalize W2 m ρ c = V2
  after_results
  rfl

/-! ## The first region's entry, buffer by buffer, as terms of the arguments -/

/-- The edges' source nodes: row 0 of the edge list followed by the self loops `0 … 99999`. -/
def rowIdx : IVec S1700000 32 :=
  concatenate S1700000 0 [⟨S1600000, shapeCast S1600000 (extractStridedSlice S1x1600000 ![0, 0]
      (m ((c.tc : Thread nD τ).loc main_arg1)) slices_S2x1600000_S1x1600000_0_0) shapeCasts_S1x1600000_S1600000⟩,
    ⟨S100000, iotaInDim S100000 32 0⟩] concatenates_S1600000_S100000_S1700000_d0

/-- The edges' target nodes: row 1 of the edge list followed by the self loops. -/
def colIdx : IVec S1700000 32 :=
  concatenate S1700000 0 [⟨S1600000, shapeCast S1600000 (extractStridedSlice S1x1600000 ![1, 0]
      (m ((c.tc : Thread nD τ).loc main_arg1)) slices_S2x1600000_S1x1600000_1_0) shapeCasts_S1x1600000_S1600000⟩,
    ⟨S100000, iotaInDim S100000 32 0⟩] concatenates_S1600000_S100000_S1700000_d0

/-- The in-degree of every node: a one scattered onto each edge's target. -/
def degree : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (colIdx m c))
    (broadcastInDim S1700000 ![] bcast_S_S1700000 (constant S_ .f32 0x3F800000#32))

/-- The normalisation vector: the reciprocal square root of the degree where it is positive, zero elsewhere. -/
def norm : FVec Ideal S100000 .f32 :=
  select (cmpf .ogt (degree m c) (broadcastInDim S100000 ![] bcast_S_S100000 (constant S_ .f32 0x00000000#32)))
    (Host.rsqrt (degree m c)) (broadcastInDim S100000 ![] bcast_S_S100000 (id (constant S_ .f32 0x00000000#32)))

theorem entry_v3 : W4 m ρ c (Proc.devRef .tc main_v3) = rowIdx m c := by
  after_results_simp
  results_under_pairs
  rfl

theorem entry_v6 : W4 m ρ c (Proc.devRef .tc main_v6) = colIdx m c := by
  after_results_simp
  results_under_pairs
  rfl

theorem norm_written : W2 m ρ c (Proc.devRef .tc main_v14) = norm m c := by
  show StableHlo.after hostOps0_1 (W1 m ρ c) (Proc.devRef .tc main_v14) = _
  rw [where_out]
  after_results_simp
  results_under_pairs
  rfl

theorem entry_v14 : W4 m ρ c (Proc.devRef .tc main_v14) = norm m c := by
  refine Eq.trans ?_ (norm_written m ρ c)
  show StableHlo.after hostOps0_3 (StableHlo.after hostOps0_2 (W2 m ρ c)) (Proc.devRef .tc main_v14) = W2 m ρ c _
  generalize W2 m ρ c = V2
  after_results

/-- The normalisation column the regions read, as a term of the arguments. -/
theorem entry_v15' : W4 m ρ c (Proc.devRef .tc main_v15)
    = shapeCast S100000x1 (norm m c) shapeCasts_S100000_S100000x1 := by
  rw [entry_v15, norm_written]

theorem entry_v16 : W4 m ρ c (Proc.devRef .tc main_v16)
    = pad S972x128 ![588, 0] ![0, 0] ![0, 0] (m ((c.tc : Thread nD τ).loc main_arg3))
        (sitofp (F := Ideal) .f32 (constantI S_ 32 0#32)) pads_S384x128_S972x128_58800_000 h_S_ := by
  after_results_simp
  rfl

theorem entry_arg0 : W4 m ρ c (Proc.devRef .tc main_arg0) = m ((c.tc : Thread nD τ).loc main_arg0) := by
  after_results_simp
theorem entry_arg2 : W4 m ρ c (Proc.devRef .tc main_arg2) = m ((c.tc : Thread nD τ).loc main_arg2) := by
  after_results_simp
theorem entry_arg4 : W4 m ρ c (Proc.devRef .tc main_arg4) = m ((c.tc : Thread nD τ).loc main_arg4) := by
  after_results_simp
theorem entry_arg5 : W4 m ρ c (Proc.devRef .tc main_arg5) = m ((c.tc : Thread nD τ).loc main_arg5) := by
  after_results_simp
theorem entry_arg6 : W4 m ρ c (Proc.devRef .tc main_arg6) = m ((c.tc : Thread nD τ).loc main_arg6) := by
  after_results_simp

end Cert.KernelIdeal.Walk

end
-- ==== Proof.HostIndex.lean ====
/-
  A host gather and a host scatter-add read at an index, for the one arrangement this program uses: a table of rows
  indexed by a column `[E, 1]` of 32-bit start indices.

  * Gathering rows of `x : [N, D]`: result `(e, k)` is `x[r, k]` where `r` is start index `e` read SIGNED and CLAMPED
    into `[0, N − 1]` (`gather_rows_apply`, the row named `clampRow`); gathering entries of a vector `x : [N]` is the same with no column
    (`gather_vec_apply`).
  * Scatter-adding rows into `[N, D]`: update `(e, k)` lands on element `i` only if start index `e`, read signed and NOT
    clamped, is `i`'s row, and `k` is `i`'s column (`scatter_rows_lands`); an index outside `[0, N)` lands nowhere.

  The dimension records are variables with their fields given by hypotheses, so one proof serves every width `D`.
-/
import Idealize.ShloMosaic.PureOps.Ideal
import Idealize.ShloMosaic.Lib.ValueIdx
import Idealize.ShloMosaic.Lib.Pipeline.Value

noncomputable section

open scoped BigOperators

namespace Cert.Bridge

open Idealize.ShloMosaic Idealize.ShloMosaic.ValueIdx

/-- A start index read as a signed integer and clamped into `[0, N − 1]`: the row a gather reads. -/
def clampRow {w : Nat} (N : Nat) (hN : 0 < N) (b : BitVec w) : Fin N := ⟨min b.toInt.toNat (N - 1), by omega⟩

theorem clampRow_val {w : Nat} (N : Nat) (hN : 0 < N) (b : BitVec w) : (clampRow N hN b).val = min b.toInt.toNat (N - 1) := rfl

section Gather
variable {α : Type}

theorem gather_rows_apply {N D E w : Nat} (hN : 0 < N)
    (d : GatherDims ⟨2, ![N, D]⟩ ⟨2, ![E, 1]⟩ ⟨2, ![E, D]⟩)
    (hod : d.offsetDims = [1]) (hcs : d.collapsedSliceDims = [0]) (hob : d.operandBatchingDims = [])
    (hsim : d.startIndexMap = [0]) (hiv : d.indexVectorDim = 1) (hss : d.sliceSizes = ![1, D])
    (x : (⟨2, ![N, D]⟩ : Shape).Idx → α) (idx : IVec ⟨2, ![E, 1]⟩ w) (e : Fin E) (k : Fin D) :
    Host.gather d x idx (ix2 e k) = x (ix2 (clampRow N hN (idx (ix2 e (0 : Fin 1)))) k) := by
  obtain ⟨od, cs, ob, sb, sim, iv, ss, wf⟩ := d
  dsimp only at hod hcs hob hsim hiv hss
  subst hod hcs hob hsim hiv hss
  unfold Host.gather
  refine congrArg x (funext fun a => Fin.ext ?_)
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show _ = min (idx (ix2 e (0 : Fin 1))).toInt.toNat (N - 1)
    refine congrArg (fun z => min (idx z).toInt.toNat (N - 1)) ?_
    funext b; refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

theorem gather_vec_apply {N E w : Nat} (hN : 0 < N)
    (d : GatherDims ⟨1, ![N]⟩ ⟨2, ![E, 1]⟩ ⟨1, ![E]⟩)
    (hod : d.offsetDims = []) (hcs : d.collapsedSliceDims = [0]) (hob : d.operandBatchingDims = [])
    (hsim : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 (clampRow N hN (idx (ix2 e (0 : Fin 1))))) := by
  obtain ⟨od, cs, ob, sb, sim, iv, ss, wf⟩ := d
  dsimp only at hod hcs hob hsim hiv hss
  subst hod hcs hob hsim hiv hss
  unfold Host.gather
  refine congrArg x (funext fun a => Fin.ext ?_)
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show _ = min (idx (ix2 e (0 : Fin 1))).toInt.toNat (N - 1)
    refine congrArg (fun z => min (idx z).toInt.toNat (N - 1)) ?_
    funext b; refine Fin.ext ?_
    match b with
    | ⟨0, _⟩ => rfl
    | ⟨1, _⟩ => rfl

end Gather

section Scatter

variable {N D E w : Nat} (d : ScatterDims ⟨2, ![N, D]⟩ ⟨2, ![E, 1]⟩ ⟨2, ![E, D]⟩)
  (huw : d.updateWindowDims = [1]) (hiw : d.insertedWindowDims = [0]) (hsd : d.scatterDimsToOperandDims = [0])
  (hiv : d.indexVectorDim = 1) (idx : IVec ⟨2, ![E, 1]⟩ w) (e : Fin E) (k : Fin D)

include huw hiw hsd hiv in
theorem scatter_rows_start0 : d.start (ix2 e k) idx 0 = (idx (ix2 e (0 : Fin 1))).toInt := by
  obtain ⟨uw, iw, sd, iv, wf⟩ := d
  dsimp only at huw hiw hsd hiv
  subst huw hiw hsd hiv
  unfold ScatterDims.start
  rw [dif_pos (List.mem_singleton.mpr rfl)]
  refine congrArg (fun z => (idx z).toInt) ?_
  funext b; refine Fin.ext ?_
  match b with
  | ⟨0, _⟩ => rfl
  | ⟨1, _⟩ => rfl

include huw hiw hsd hiv in
theorem scatter_rows_start1 : d.start (ix2 e k) idx 1 = 0 := by
  obtain ⟨uw, iw, sd, iv, wf⟩ := d
  dsimp only at huw hiw hsd hiv
  subst huw hiw hsd hiv
  unfold ScatterDims.start
  rw [dif_neg (show ¬ ((1 : Fin 2) ∈ ([0] : List (Fin 2))) by decide)]

include huw hiw hsd hiv in
theorem scatter_rows_window0 : d.window (ix2 e k) 0 = 0 := by
  obtain ⟨uw, iw, sd, iv, wf⟩ := d
  dsimp only at huw hiw hsd hiv
  subst huw hiw hsd hiv
  unfold ScatterDims.window
  rw [dif_neg (show ¬ ((0 : Fin 2) ∈ (Shape.kept ⟨2, ![N, D]⟩ ([0] : List (Fin 2)))) by simp [Shape.kept, List.mem_filter, List.mem_finRange])]

include huw hiw hsd hiv in
theorem scatter_rows_window1 : d.window (ix2 e k) 1 = k.val := by
  obtain ⟨uw, iw, sd, iv, wf⟩ := d
  dsimp only at huw hiw hsd hiv
  subst huw hiw hsd hiv
  unfold ScatterDims.window
  rw [dif_pos (show ((1 : Fin 2) ∈ (Shape.kept ⟨2, ![N, D]⟩ ([0] : List (Fin 2)))) by simp [Shape.kept, List.mem_filter, List.mem_finRange])]
  rfl

include huw hiw hsd hiv in
/-- An update row `e`, column `k`, lands on operand element `i` only if the row's start index IS `i`'s row (read
    signed, not clamped) and the column is `i`'s column. -/
theorem scatter_rows_lands (i : (⟨2, ![N, D]⟩ : Shape).Idx) (h : d.resultIdx? (ix2 e k) idx = some i) :
    (idx (ix2 e (0 : Fin 1))).toInt = ((i 0).val : Int) ∧ (i 1).val = k.val := by
  unfold ScatterDims.resultIdx? at h
  split at h
  · rename_i hin
    have hi := Option.some.inj h
    subst hi
    have h0 := (hin 0).1
    rw [scatter_rows_start0 d huw hiw hsd hiv idx e k, scatter_rows_window0 d huw hiw hsd hiv e k] at h0
    constructor
    · show _ = (((d.start (ix2 e k) idx 0 + (d.window (ix2 e k) 0 : Int)).toNat : ℕ) : Int)
      rw [scatter_rows_start0 d huw hiw hsd hiv idx e k, scatter_rows_window0 d huw hiw hsd hiv e k]
      rw [Int.toNat_of_nonneg h0]
      simp
    · show (d.start (ix2 e k) idx 1 + (d.window (ix2 e k) 1 : Int)).toNat = k.val
      rw [scatter_rows_start1 d huw hiw hsd hiv idx e k, scatter_rows_window1 d huw hiw hsd hiv e k]
      simp
  · cases h

end Scatter

end Cert.Bridge

end
-- ==== Proof.Layer.lean ====
/-
  One graph-convolution layer, with the symmetric normalisation moved from the edges to the nodes.

  The reference sums, over the edges `e` that end at node `c`, the message `hw[row e] · (dinv[row e] · dinv[col e])`. The kernel
  scales every row of `hw` by `dinv` once, sums the scaled rows `hw[row e] · dinv[row e]` over the same edges, and multiplies the
  sum by `dinv[c]`. An update lands on node `c` exactly when its (unwrapped, unclamped) target index IS `c`, and for such an
  edge the wrapped and clamped index the reference gathers `dinv` at is `c` too; so every summand of the reference's sum is the
  kernel's summand times the one factor `dinv[c]`. That factor is a non-negative REAL (the gated reciprocal square root of a
  degree is, even for an infinite degree), and a non-negative real distributes over any finite sum of extended reals — no
  finiteness of the summands is needed. Multiplication of extended reals is associative, which regroups the three factors.
-/
import proofs.«134513_j51453708206756_2_alg».proof.Proof.Spec
import proofs.«134513_j51453708206756_2_alg».proof.Proof.HostIndex
import Idealize.ShloMosaic.PureOps.Ideal.Laws
import Idealize.ShloMosaic.Lib.Pipeline.Value

noncomputable section

open scoped BigOperators

namespace Cert.Bridge

open Idealize.ShloMosaic Idealize.ShloMosaic.ValueIdx

/-! ## Scaling a finite sum of extended reals by a non-negative real -/

theorem sum_mul_of_nonneg_ne_top {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

theorem hostScatterAdd_scale {s si su : Shape} (d : ScatterDims s si su) {w : Nat} (z : s.Idx → EReal) (idx : IVec si w)
    (u u' : su.Idx → EReal) (c : EReal) (i : s.Idx) (hz : z i = 0) (h0 : 0 ≤ c) (ht : c ≠ ⊤)
    (h : ∀ j, d.resultIdx? j idx = some i → u' j = u j * c) :
    Ideal.hostScatterAdd d z idx u' i = Ideal.hostScatterAdd d z idx u i * c := by
  unfold Ideal.hostScatterAdd
  rw [hz, zero_add, zero_add, sum_mul_of_nonneg_ne_top _ _ _ h0 ht]
  exact Finset.sum_congr rfl fun j hj => h j (Finset.mem_filter.mp hj).2

/-! ## The gated reciprocal square root is a non-negative real -/

theorem gated_rsqrt (g : EReal) :
    0 ≤ Scalar.select (Ideal.cmp .ogt g 0) (Ideal.rsqrt g) 0 ∧ Scalar.select (Ideal.cmp .ogt g 0) (Ideal.rsqrt g) 0 ≠ ⊤ := by
  by_cases h : (0 : EReal) < g
  · have hc : Ideal.cmp .ogt g 0 = 1#1 := by simp [Ideal.cmp, h]
    rw [hc, select_one]
    induction g using EReal.rec with
    | bot => exact absurd h (by simp)
    | top => simp
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hc : Ideal.cmp .ogt g 0 = 0#1 := by simp [Ideal.cmp, h]
    rw [hc, select_zero]
    exact ⟨le_refl _, EReal.zero_ne_top⟩

/-! ## Vectors at an index -/

/-- A broadcast of the zero literal reads `0` everywhere. -/
theorem bcast_zero_apply {T : Shape} (dims : Fin (⟨0, ![]⟩ : Shape).rank → Fin T.rank)
    (h : (⟨0, ![]⟩ : Shape).BroadcastsInDim T dims) (i : T.Idx) :
    broadcastInDim T dims h (constant (F := Ideal) ⟨0, ![]⟩ .f32 0x00000000#32) i = 0 := by
  unfold broadcastInDim
  exact Ideal.ofBits_zero_f32

/-- The normalisation vector — the reciprocal square root of a degree where the degree is positive, zero elsewhere — is a
    non-negative real at every index, whatever the degree (even infinite). -/
theorem gated_rsqrt_vec {S : Shape} (g z z' : FVec Ideal S .f32) (hz : ∀ n, z n = 0) (hz' : ∀ n, z' n = 0) (n : S.Idx) :
    0 ≤ select (cmpf .ogt g z) (Host.rsqrt g) z' n ∧ select (cmpf .ogt g z) (Host.rsqrt g) z' n ≠ ⊤ := by
  have e : select (cmpf .ogt g z) (Host.rsqrt g) z' n
      = Scalar.select (Ideal.cmp .ogt (g n) 0) (Ideal.rsqrt (g n)) 0 := by
    rw [select_apply, cmpf_apply, hz, hz']
    rfl
  rw [e]
  exact gated_rsqrt (g n)

/-- Wrapping a negative index by the table's length leaves a non-negative index as it is. -/
theorem wrap_fix {S : Shape} (v z nn : IVec S 32) (hz : ∀ e, z e = 0#32) (e : S.Idx) (h : 0 ≤ (v e).toInt) :
    select (cmpi .slt v z) (addi v nn) v e = v e := by
  rw [select_apply]
  have hc : cmpi .slt v z e = 0#1 := by
    show IntOp.cmpi .slt (v e) (z e) = 0#1
    rw [hz]
    have hn : ¬ ((v e).toInt < 0) := not_lt.mpr h
    simp [IntOp.cmpi, BitVec.slt, hn]
  rw [hc, select_zero]

/-! ## The broadcasts of this program, read at an index -/

section Bcasts
variable {α : Type}

theorem bcast_col_apply {E : Nat} (hE : E ≠ 1) (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply ![0] h v (ix2 e (0 : Fin 1)) (ix1 e) (fun a => by
    match a with
    | ⟨0, _⟩ =>
      show e.val = if E = 1 then 0 else e.val
      rw [if_neg hE])

theorem bcast_row_apply {E D : Nat} (hE : E ≠ 1) (h : (⟨2, ![E, 1]⟩ : Shape).BroadcastsInDim ⟨2, ![E, D]⟩ ![0, 1])
    (v : (⟨2, ![E, 1]⟩ : Shape).Idx → α) (e : Fin E) (k : Fin D) :
    broadcastInDim ⟨2, ![E, D]⟩ ![0, 1] h v (ix2 e k) = v (ix2 e (0 : Fin 1)) :=
  broadcastInDim_apply ![0, 1] h v (ix2 e k) (ix2 e (0 : Fin 1)) (fun a => by
    match a with
    | ⟨0, _⟩ =>
      show e.val = if E = 1 then 0 else e.val
      rw [if_neg hE]
    | ⟨1, _⟩ =>
      show 0 = if (1 : ℕ) = 1 then 0 else k.val
      rw [if_pos rfl])

end Bcasts

/-! ## One graph-convolution layer: the normalisation moved from the edges to the nodes -/

section Layer

variable {D : Nat}
  (dS : ScatterDims ⟨2, ![100000, D]⟩ ⟨2, ![1700000, 1]⟩ ⟨2, ![1700000, D]⟩)
  (huw : dS.updateWindowDims = [1]) (hiw : dS.insertedWindowDims = [0]) (hsd : dS.scatterDimsToOperandDims = [0])
  (hsiv : dS.indexVectorDim = 1)
  (dG : GatherDims ⟨2, ![100000, D]⟩ ⟨2, ![1700000, 1]⟩ ⟨2, ![1700000, D]⟩)
  (hGod : dG.offsetDims = [1]) (hGcs : dG.collapsedSliceDims = [0]) (hGob : dG.operandBatchingDims = [])
  (hGsim : dG.startIndexMap = [0]) (hGiv : dG.indexVectorDim = 1) (hGss : dG.sliceSizes = ![1, D])
  (dV : GatherDims ⟨1, ![100000]⟩ ⟨2, ![1700000, 1]⟩ ⟨1, ![1700000]⟩)
  (hVod : dV.offsetDims = []) (hVcs : dV.collapsedSliceDims = [0]) (hVob : dV.operandBatchingDims = [])
  (hVsim : dV.startIndexMap = [0]) (hViv : dV.indexVectorDim = 1) (hVss : dV.sliceSizes = ![1])
  (hbI : (⟨1, ![1700000]⟩ : Shape).BroadcastsInDim ⟨2, ![1700000, 1]⟩ ![0])
  (hbED : (⟨2, ![1700000, 1]⟩ : Shape).BroadcastsInDim ⟨2, ![1700000, D]⟩ ![0, 1])
  (hbN1 : (⟨1, ![100000]⟩ : Shape).BroadcastsInDim ⟨2, ![100000, 1]⟩ ![0])
  (hbND : (⟨2, ![100000, 1]⟩ : Shape).BroadcastsInDim ⟨2, ![100000, D]⟩ ![0, 1])

include huw hiw hsd hsiv hGod hGcs hGob hGsim hGiv hGss hVod hVcs hVob hVsim hViv hVss in
theorem layer_reassoc (Z : FVec Ideal ⟨2, ![100000, D]⟩ .f32) (hZ : ∀ i, Z i = 0)
    (COL ROWN COLN : IVec ⟨1, ![1700000]⟩ 32) (hwrap : ∀ e, 0 ≤ (COL e).toInt → COLN e = COL e)
    (DINV : FVec Ideal ⟨1, ![100000]⟩ .f32) (hD : ∀ n, 0 ≤ DINV n ∧ DINV n ≠ ⊤)
    (HW : FVec Ideal ⟨2, ![100000, D]⟩ .f32) :
    Host.scatterAdd dS Z (broadcastInDim ⟨2, ![1700000, 1]⟩ ![0] hbI COL)
        (mulf (Host.gather dG HW (broadcastInDim ⟨2, ![1700000, 1]⟩ ![0] hbI ROWN))
          (broadcastInDim ⟨2, ![1700000, D]⟩ ![0, 1] hbED (broadcastInDim ⟨2, ![1700000, 1]⟩ ![0] hbI
            (mulf (Host.gather dV DINV (broadcastInDim ⟨2, ![1700000, 1]⟩ ![0] hbI ROWN))
              (Host.gather dV DINV (broadcastInDim ⟨2, ![1700000, 1]⟩ ![0] hbI COLN))))))
      = mulf (Host.scatterAdd dS Z (broadcastInDim ⟨2, ![1700000, 1]⟩ ![0] hbI COL)
            (Host.gather dG (scaleRows HW DINV) (broadcastInDim ⟨2, ![1700000, 1]⟩ ![0] hbI ROWN)))
          (broadcastInDim ⟨2, ![100000, D]⟩ ![0, 1] hbND (broadcastInDim ⟨2, ![100000, 1]⟩ ![0] hbN1 DINV)) := by
  funext i
  obtain ⟨c, k', rfl⟩ : ∃ (c : Fin 100000) (k' : Fin D), i = ix2 c k' := ⟨i 0, i 1, eq_ix2 i⟩
  rw [mulf_apply, bcast_row_apply (by norm_num) hbND, bcast_col_apply (by norm_num) hbN1]
  refine hostScatterAdd_scale dS Z _ _ _ (DINV (ix1 c)) (ix2 c k') (hZ _) (hD _).1 (hD _).2 (fun j hj => ?_)
  obtain ⟨e, k, rfl⟩ : ∃ (e : Fin 1700000) (k : Fin D), j = ix2 e k := ⟨j 0, j 1, eq_ix2 j⟩
  have hl := scatter_rows_lands dS huw hiw hsd hsiv _ e k (ix2 c k') hj
  rw [bcast_col_apply (by norm_num) hbI] at hl
  have hc : COLN (ix1 e) = COL (ix1 e) := hwrap _ (by rw [hl.1]; exact Int.natCast_nonneg _)
  rw [mulf_apply, gather_rows_apply (by norm_num) dG hGod hGcs hGob hGsim hGiv hGss HW _ e k,
    bcast_row_apply (by norm_num) hbED, bcast_col_apply (by norm_num) hbI (mulf _ _) e, mulf_apply,
    gather_vec_apply (by norm_num) dV hVod hVcs hVob hVsim hViv hVss DINV _ e,
    gather_vec_apply (by norm_num) dV hVod hVcs hVob hVsim hViv hVss DINV _ e,
    gather_rows_apply (by norm_num) dG hGod hGcs hGob hGsim hGiv hGss (scaleRows HW DINV) _ e k, scaleRows_apply,
    bcast_col_apply (by norm_num) hbI ROWN e, bcast_col_apply (by norm_num) hbI COLN e]
  have hidx : clampRow 100000 (by norm_num) (COLN (ix1 e)) = c := by
    refine Fin.ext ?_
    rw [clampRow_val, hc, hl.1]
    have := c.isLt
    show min ((c.val : Int)).toNat (100000 - 1) = c.val
    simp
    omega
  rw [hidx, mul_assoc]

end Layer

end Cert.Bridge

end
-- ==== Proof.LayerRef.lean ====
/-
  The layer identity of `Layer.lean` at this program's two feature widths (128 and 64), spelt over the reference program's own
  dimension records and shapes, with the normalisation vector and the wrapped indices in the form the programs compute them:
  * `wrapIdx v`: an index below zero is moved up by the table's length 100000 (what indexing with a negative index means);
  * `normOf deg`: `deg^(-1/2)` where `deg > 0`, else `0`.
  Every side condition of the general identity is discharged here, so these two are used by rewriting alone.
-/
import proofs.«134513_j51453708206756_2_alg».proof.ReferenceIdeal
import proofs.«134513_j51453708206756_2_alg».proof.Proof.Layer

noncomputable section

namespace Cert.Bridge

open Cert.ReferenceIdeal Idealize.ShloMosaic Idealize.ShloMosaic.ValueIdx

variable [Cert.ReferenceIdeal.Facts₀]

/-- An edge-index vector with its negative entries wrapped by the table's length. -/
abbrev wrapIdx (hbz : S_.BroadcastsInDim S1700000 ![]) (v : IVec S1700000 32) : IVec S1700000 32 :=
  select (cmpi .slt v (broadcastInDim S1700000 ![] hbz (constantI S_ 32 0#32)))
    (addi v (broadcastInDim S1700000 ![] hbz (constantI S_ 32 100000#32))) v

omit [Cert.ReferenceIdeal.Facts₀] in
theorem wrapIdx_fix (hbz : S_.BroadcastsInDim S1700000 ![]) (v : IVec S1700000 32) (e : S1700000.Idx)
    (h : 0 ≤ (v e).toInt) : wrapIdx hbz v e = v e :=
  wrap_fix _ _ _ (fun _ => rfl) e h

/-- The symmetric normalisation vector of a degree vector: the reciprocal square root where the degree is positive, zero
    elsewhere. -/
abbrev normOf (hb0N : S_.BroadcastsInDim S100000 ![]) (DEG : FVec Ideal S100000 .f32) : FVec Ideal S100000 .f32 :=
  select (cmpf .ogt DEG (broadcastInDim S100000 ![] hb0N (constant S_ .f32 0x00000000#32))) (Host.rsqrt DEG)
    (broadcastInDim S100000 ![] hb0N (id (constant S_ .f32 0x00000000#32)))

omit [Cert.ReferenceIdeal.Facts₀] in
theorem normOf_real (hb0N : S_.BroadcastsInDim S100000 ![]) (DEG : FVec Ideal S100000 .f32) (n : S100000.Idx) :
    0 ≤ normOf hb0N DEG n ∧ normOf hb0N DEG n ≠ ⊤ :=
  gated_rsqrt_vec _ _ _ (fun i => bcast_zero_apply _ _ i) (fun i => bcast_zero_apply _ _ i) n

/-- The first layer (width 128): the per-edge normalisation of the reference is the kernel's per-node one. -/
theorem layer_one (hb0D : S_.BroadcastsInDim S100000x128 ![]) (hbI : S1700000.BroadcastsInDim S1700000x1 ![0])
    (hbz : S_.BroadcastsInDim S1700000 ![]) (hbED : S1700000x1.BroadcastsInDim S1700000x128 ![0, 1])
    (hb0N : S_.BroadcastsInDim S100000 ![])
    (COL ROWRAW : IVec S1700000 32) (DEG : FVec Ideal S100000 .f32) (HW : FVec Ideal S100000x128 .f32) :
    Host.scatterAdd scatter_S100000x128_S1700000x1_S1700000x128_1_0_0_1 (broadcastInDim S100000x128 ![] hb0D (constant S_ .f32 0x00000000#32))
        (broadcastInDim S1700000x1 ![0] hbI COL)
        (mulf (Host.gather gather_S100000x128_S1700000x1_S1700000x128_1_0_n_n_0_1_1128 HW (broadcastInDim S1700000x1 ![0] hbI (wrapIdx hbz ROWRAW)))
          (broadcastInDim S1700000x128 ![0, 1] hbED (broadcastInDim S1700000x1 ![0] hbI
            (mulf (Host.gather gather_S100000_S1700000x1_S1700000_n_0_n_n_0_1_1 (normOf hb0N DEG)
                (broadcastInDim S1700000x1 ![0] hbI (wrapIdx hbz ROWRAW)))
              (Host.gather gather_S100000_S1700000x1_S1700000_n_0_n_n_0_1_1 (normOf hb0N DEG)
                (broadcastInDim S1700000x1 ![0] hbI (wrapIdx hbz COL)))))))
      = mulf (Host.scatterAdd scatter_S100000x128_S1700000x1_S1700000x128_1_0_0_1 (broadcastInDim S100000x128 ![] hb0D (constant S_ .f32 0x00000000#32))
            (broadcastInDim S1700000x1 ![0] hbI COL)
            (Host.gather gather_S100000x128_S1700000x1_S1700000x128_1_0_n_n_0_1_1128 (scaleRows HW (normOf hb0N DEG)) (broadcastInDim S1700000x1 ![0] hbI (wrapIdx hbz ROWRAW))))
          (broadcastInDim S100000x128 ![0, 1] (by decide)
            (broadcastInDim (⟨2, ![100000, 1]⟩ : Shape) ![0] (by decide) (normOf hb0N DEG))) :=
  layer_reassoc (D := 128) (dS := scatter_S100000x128_S1700000x1_S1700000x128_1_0_0_1) (huw := rfl) (hiw := rfl) (hsd := rfl) (hsiv := rfl)
    (dG := gather_S100000x128_S1700000x1_S1700000x128_1_0_n_n_0_1_1128) (hGod := rfl) (hGcs := rfl) (hGob := rfl) (hGsim := rfl) (hGiv := rfl) (hGss := rfl)
    (dV := gather_S100000_S1700000x1_S1700000_n_0_n_n_0_1_1) (hVod := rfl) (hVcs := rfl) (hVob := rfl) (hVsim := rfl)
    (hViv := rfl) (hVss := rfl) (hbI := hbI) (hbED := hbED) (hbN1 := by decide) (hbND := by decide)
    (Z := broadcastInDim S100000x128 ![] hb0D (constant S_ .f32 0x00000000#32)) (hZ := fun i => bcast_zero_apply _ _ i)
    (COL := COL) (ROWN := wrapIdx hbz ROWRAW) (COLN := wrapIdx hbz COL) (hwrap := fun e h => wrapIdx_fix hbz COL e h)
    (DINV := normOf hb0N DEG) (hD := fun n => normOf_real hb0N DEG n) (HW := HW)

/-- The second layer (width 64). -/
theorem layer_two (hb0D : S_.BroadcastsInDim S100000x64 ![]) (hbI : S1700000.BroadcastsInDim S1700000x1 ![0])
    (hbz : S_.BroadcastsInDim S1700000 ![]) (hbED : S1700000x1.BroadcastsInDim S1700000x64 ![0, 1])
    (hb0N : S_.BroadcastsInDim S100000 ![])
    (COL ROWRAW : IVec S1700000 32) (DEG : FVec Ideal S100000 .f32) (HW : FVec Ideal S100000x64 .f32) :
    Host.scatterAdd scatter_S100000x64_S1700000x1_S1700000x64_1_0_0_1 (broadcastInDim S100000x64 ![] hb0D (constant S_ .f32 0x00000000#32))
        (broadcastInDim S1700000x1 ![0] hbI COL)
        (mulf (Host.gather gather_S100000x64_S1700000x1_S1700000x64_1_0_n_n_0_1_164 HW (broadcastInDim S1700000x1 ![0] hbI (wrapIdx hbz ROWRAW)))
          (broadcastInDim S1700000x64 ![0, 1] hbED (broadcastInDim S1700000x1 ![0] hbI
            (mulf (Host.gather gather_S100000_S1700000x1_S1700000_n_0_n_n_0_1_1 (normOf hb0N DEG)
                (broadcastInDim S1700000x1 ![0] hbI (wrapIdx hbz ROWRAW)))
              (Host.gather gather_S100000_S1700000x1_S1700000_n_0_n_n_0_1_1 (normOf hb0N DEG)
                (broadcastInDim S1700000x1 ![0] hbI (wrapIdx hbz COL)))))))
      = mulf (Host.scatterAdd scatter_S100000x64_S1700000x1_S1700000x64_1_0_0_1 (broadcastInDim S100000x64 ![] hb0D (constant S_ .f32 0x00000000#32))
            (broadcastInDim S1700000x1 ![0] hbI COL)
            (Host.gather gather_S100000x64_S1700000x1_S1700000x64_1_0_n_n_0_1_164 (scaleRows HW (normOf hb0N DEG)) (broadcastInDim S1700000x1 ![0] hbI (wrapIdx hbz ROWRAW))))
          (broadcastInDim S100000x64 ![0, 1] (by decide)
            (broadcastInDim (⟨2, ![100000, 1]⟩ : Shape) ![0] (by decide) (normOf hb0N DEG))) :=
  layer_reassoc (D := 64) (dS := scatter_S100000x64_S1700000x1_S1700000x64_1_0_0_1) (huw := rfl) (hiw := rfl) (hsd := rfl) (hsiv := rfl)
    (dG := gather_S100000x64_S1700000x1_S1700000x64_1_0_n_n_0_1_164) (hGod := rfl) (hGcs := rfl) (hGob := rfl) (hGsim := rfl) (hGiv := rfl) (hGss := rfl)
    (dV := gather_S100000_S1700000x1_S1700000_n_0_n_n_0_1_1) (hVod := rfl) (hVcs := rfl) (hVob := rfl) (hVsim := rfl)
    (hViv := rfl) (hVss := rfl) (hbI := hbI) (hbED := hbED) (hbN1 := by decide) (hbND := by decide)
    (Z := broadcastInDim S100000x64 ![] hb0D (constant S_ .f32 0x00000000#32)) (hZ := fun i => bcast_zero_apply _ _ i)
    (COL := COL) (ROWN := wrapIdx hbz ROWRAW) (COLN := wrapIdx hbz COL) (hwrap := fun e h => wrapIdx_fix hbz COL e h)
    (DINV := normOf hb0N DEG) (hD := fun n => normOf_real hb0N DEG n) (HW := HW)

end Cert.Bridge

end
-- ==== Proof.MatmulBridge.lean ====
/-
  Each region's row-scaled product against the reference's matrix product. The reference multiplies the operands
  with one `dot_general` and scales row `n` of the result by `s[n]`; a region scales by the column `s` reshaped to
  `[N, 1]`, whose entry `(n, 0)` is `s[n]`. For the second region the two products are the same sum. For the first,
  the region multiplies all 972 columns of `X` by the weight matrix padded with 588 leading zero rows, the
  reference only the last 384 columns of `X` by the unpadded matrix: the first 588 terms of the region's sum are
  products with zero and vanish on the extended reals, and the remaining 384 are the reference's terms.
-/
import proofs.«134513_j51453708206756_2_alg».proof.ReferenceIdeal
import proofs.«134513_j51453708206756_2_alg».proof.Proof.Spec
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.Bridge

open Cert.ReferenceIdeal Idealize.ShloMosaic Idealize.ShloMosaic.ValueIdx

variable [Cert.ReferenceIdeal.Facts₀]

/-- A vector `[a]` reshaped to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The padding value, the integer zero converted to a float, is zero. -/
theorem pad_value_zero (j : S_.Idx) : (sitofp (F := Ideal) .f32 (constantI S_ 32 0#32)) j = (0 : EReal) := by
  show ((((0#32 : BitVec 32).toInt : ℤ) : ℝ) : EReal) = 0
  simp

/-- The contraction of the second layer's product: rows of an `[100000, 128]` array against columns of a `[128, 64]` array, over
    the one shared axis of extent 128. -/
abbrev dotTwo := dot_S100000x128_S128x64_S100000x64_1_0_0_1_n_n

/-- The left operand is read at the output's row … -/
theorem dotTwo_lhs0 (i : S100000x64.Idx) (q : dotTwo.contr.Idx) : (dotTwo.lhsIdx i q 0).val = (i 0).val := by
  unfold DotDims.lhsIdx
  rw [dif_neg (show ¬(0 : Fin S100000x128.rank) ∈ dotTwo.lhsBatch from List.not_mem_nil), dif_pos (show (0 : Fin S100000x128.rank) ∈ dotTwo.lhsNonContracting from List.mem_singleton.mpr rfl)]
  rfl
/-- … and the contraction index; -/
theorem dotTwo_lhs1 (i : S100000x64.Idx) (q : dotTwo.contr.Idx) : (dotTwo.lhsIdx i q 1).val = (q ⟨0, Nat.one_pos⟩).val :=
  dotTwo.lhsIdx_val_of_single rfl i q
/-- the right operand at the contraction index … -/
theorem dotTwo_rhs0 (i : S100000x64.Idx) (q : dotTwo.contr.Idx) : (dotTwo.rhsIdx i q 0).val = (q ⟨0, Nat.one_pos⟩).val :=
  dotTwo.rhsIdx_val_of_single rfl i q
/-- … and the output's column. -/
theorem dotTwo_rhs1 (i : S100000x64.Idx) (q : dotTwo.contr.Idx) : (dotTwo.rhsIdx i q 1).val = (i 1).val := by
  unfold DotDims.rhsIdx
  rw [dif_neg (show ¬(1 : Fin S128x64.rank) ∈ dotTwo.rhsBatch from List.not_mem_nil), dif_pos (show (1 : Fin S128x64.rank) ∈ dotTwo.rhsNonContracting from List.mem_singleton.mpr rfl)]
  rfl

/-- The product at entry `(n, d)`: the inner product of row `n` of the left operand with column `d` of the
    right one (the sum over the contraction index, re-indexed by its one coordinate). -/
theorem dotTwo_apply (l : FVec Ideal S100000x128 .f32) (r : FVec Ideal S128x64 .f32) (n : Fin 100000) (d : Fin 64) :
    Host.dotGeneral dotTwo none l r (ix2 n d) = ∑ q : Fin 128, l (ix2 n q) * r (ix2 q d) := by
  simp only [Host.dotGeneral]
  rw [Ideal.dotGeneral_apply, ← Equiv.sum_comp (contrEquiv1 dotTwo 128 rfl rfl).symm]
  refine Finset.sum_congr rfl fun k _ => ?_
  have hk := contrEquiv1_symm_val dotTwo 128 rfl rfl k
  have el : dotTwo.lhsIdx (ix2 n d) ((contrEquiv1 dotTwo 128 rfl rfl).symm k) = ix2 n k := funext fun a => Fin.ext (by
    match a with
    | ⟨0, _⟩ => exact dotTwo_lhs0 _ _
    | ⟨1, _⟩ => exact (dotTwo_lhs1 _ _).trans hk)
  have er : dotTwo.rhsIdx (ix2 n d) ((contrEquiv1 dotTwo 128 rfl rfl).symm k) = ix2 k d := funext fun a => Fin.ext (by
    match a with
    | ⟨0, _⟩ => exact (dotTwo_rhs0 _ _).trans hk
    | ⟨1, _⟩ => exact dotTwo_rhs1 _ _)
  rw [el, er]

/-- The contraction of the first layer's product: rows of an `[100000, 384]` array against columns of a `[384, 128]` array, over
    the one shared axis of extent 384. -/
abbrev dotOne := dot_S100000x384_S384x128_S100000x128_1_0_0_1_n_n

/-- The left operand is read at the output's row … -/
theorem dotOne_lhs0 (i : S100000x128.Idx) (q : dotOne.contr.Idx) : (dotOne.lhsIdx i q 0).val = (i 0).val := by
  unfold DotDims.lhsIdx
  rw [dif_neg (show ¬(0 : Fin S100000x384.rank) ∈ dotOne.lhsBatch from List.not_mem_nil), dif_pos (show (0 : Fin S100000x384.rank) ∈ dotOne.lhsNonContracting from List.mem_singleton.mpr rfl)]
  rfl
/-- … and the contraction index; -/
theorem dotOne_lhs1 (i : S100000x128.Idx) (q : dotOne.contr.Idx) : (dotOne.lhsIdx i q 1).val = (q ⟨0, Nat.one_pos⟩).val :=
  dotOne.lhsIdx_val_of_single rfl i q
/-- the right operand at the contraction index … -/
theorem dotOne_rhs0 (i : S100000x128.Idx) (q : dotOne.contr.Idx) : (dotOne.rhsIdx i q 0).val = (q ⟨0, Nat.one_pos⟩).val :=
  dotOne.rhsIdx_val_of_single rfl i q
/-- … and the output's column. -/
theorem dotOne_rhs1 (i : S100000x128.Idx) (q : dotOne.contr.Idx) : (dotOne.rhsIdx i q 1).val = (i 1).val := by
  unfold DotDims.rhsIdx
  rw [dif_neg (show ¬(1 : Fin S384x128.rank) ∈ dotOne.rhsBatch from List.not_mem_nil), dif_pos (show (1 : Fin S384x128.rank) ∈ dotOne.rhsNonContracting from List.mem_singleton.mpr rfl)]
  rfl

/-- The product at entry `(n, d)`: the inner product of row `n` of the left operand with column `d` of the
    right one (the sum over the contraction index, re-indexed by its one coordinate). -/
theorem dotOne_apply (l : FVec Ideal S100000x384 .f32) (r : FVec Ideal S384x128 .f32) (n : Fin 100000) (d : Fin 128) :
    Host.dotGeneral dotOne none l r (ix2 n d) = ∑ q : Fin 384, l (ix2 n q) * r (ix2 q d) := by
  simp only [Host.dotGeneral]
  rw [Ideal.dotGeneral_apply, ← Equiv.sum_comp (contrEquiv1 dotOne 384 rfl rfl).symm]
  refine Finset.sum_congr rfl fun k _ => ?_
  have hk := contrEquiv1_symm_val dotOne 384 rfl rfl k
  have el : dotOne.lhsIdx (ix2 n d) ((contrEquiv1 dotOne 384 rfl rfl).symm k) = ix2 n k := funext fun a => Fin.ext (by
    match a with
    | ⟨0, _⟩ => exact dotOne_lhs0 _ _
    | ⟨1, _⟩ => exact (dotOne_lhs1 _ _).trans hk)
  have er : dotOne.rhsIdx (ix2 n d) ((contrEquiv1 dotOne 384 rfl rfl).symm k) = ix2 k d := funext fun a => Fin.ext (by
    match a with
    | ⟨0, _⟩ => exact (dotOne_rhs0 _ _).trans hk
    | ⟨1, _⟩ => exact dotOne_rhs1 _ _)
  rw [el, er]

/-- THE SECOND REGION against the reference: the row-scaled product with the scale as a column is the reference's
    product with every row scaled by the vector's entry. -/
theorem product_two (h : FVec Ideal S100000x128 .f32) (W : FVec Ideal S128x64 .f32) (s : FVec Ideal S100000 .f32)
    (hsc : S100000.ShapeCasts (⟨2, ![100000, 1]⟩ : Shape)) :
    scaledProduct (N := 100000) (K := 128) (D := 64) h W (shapeCast (⟨2, ![100000, 1]⟩ : Shape) s hsc)
      = scaleRows (Host.dotGeneral dot_S100000x128_S128x64_S100000x64_1_0_0_1_n_n none h W) s := by
  funext i
  obtain ⟨n, d, rfl⟩ : ∃ (n : Fin 100000) (d : Fin 64), i = ix2 n d := ⟨i 0, i 1, eq_ix2 i⟩
  rw [scaledProduct_apply, scaleRows_apply]
  exact congrArg₂ (· * ·) (dotTwo_apply h W n d).symm (shapeCast_a_a1_apply s hsc n 0)

/-- The padded weight matrix on its first 588 rows is zero … -/
theorem padded_low (W : FVec Ideal S384x128 .f32) (hp : S384x128.Pads ![588, 0] ![0, 0] ![0, 0] (⟨2, ![972, 128]⟩ : Shape)) (hu : 0 < S_.numel)
    (i : Fin 588) (d : Fin 128) :
    pad (⟨2, ![972, 128]⟩ : Shape) ![588, 0] ![0, 0] ![0, 0] W (sitofp (F := Ideal) .f32 (constantI S_ 32 0#32)) hp hu
      (ix2 (Fin.castAdd 384 i) d) = (0 : EReal) :=
  (pad_apply_of_not_inside ![588, 0] ![0, 0] ![0, 0] W (sitofp (F := Ideal) .f32 (constantI S_ 32 0#32)) hp hu
    (ix2 (Fin.castAdd 384 i) d) (0 : Fin 2) (fun hin => by
      have h1 : 588 ≤ i.val := hin.1
      have h2 : i.val < 588 := i.isLt
      omega)).trans (pad_value_zero _)

/-- … and on row `588 + k` it is row `k` of the matrix. -/
theorem padded_high (W : FVec Ideal S384x128 .f32) (hp : S384x128.Pads ![588, 0] ![0, 0] ![0, 0] (⟨2, ![972, 128]⟩ : Shape)) (hu : 0 < S_.numel)
    (k : Fin 384) (d : Fin 128) :
    pad (⟨2, ![972, 128]⟩ : Shape) ![588, 0] ![0, 0] ![0, 0] W (sitofp (F := Ideal) .f32 (constantI S_ 32 0#32)) hp hu
      (ix2 (Fin.natAdd 588 k) d) = W (ix2 k d) :=
  pad_apply_of_inside ![588, 0] ![0, 0] ![0, 0] W (sitofp (F := Ideal) .f32 (constantI S_ 32 0#32)) hp hu
    (ix2 (Fin.natAdd 588 k) d) (ix2 k d) (fun a => by
      match a with
      | ⟨0, _⟩ => show 588 + k.val = 588 + k.val * (0 + 1); omega
      | ⟨1, _⟩ => show d.val = 0 + d.val * (0 + 1); omega)

/-- The last 384 columns of `X`: column `k` of the slice is column `588 + k` of `X`. -/
theorem sliced_columns (X : FVec Ideal S100000x972 .f32) (hs : S100000x972.Slices ![0, 588] S100000x384)
    (n : Fin 100000) (k : Fin 384) :
    extractStridedSlice S100000x384 ![0, 588] X hs (ix2 n k) = X (ix2 n (Fin.natAdd 588 k)) :=
  extractStridedSlice_apply ![0, 588] X hs (ix2 n k) (ix2 n (Fin.natAdd 588 k)) (fun a => by
    match a with
    | ⟨0, _⟩ => show n.val = 0 + n.val; omega
    | ⟨1, _⟩ => show 588 + k.val = 588 + k.val; rfl)

/-- THE FIRST REGION against the reference: the row-scaled product of all of `X` with the zero-padded weight matrix
    is the reference's product of the last 384 columns of `X` with the matrix, every row scaled by the vector's
    entry. The sum over 972 = 588 + 384 columns splits; the first 588 terms are products with zero. -/
theorem product_one (X : FVec Ideal S100000x972 .f32) (W : FVec Ideal S384x128 .f32) (s : FVec Ideal S100000 .f32)
    (hsc : S100000.ShapeCasts (⟨2, ![100000, 1]⟩ : Shape)) (hp : S384x128.Pads ![588, 0] ![0, 0] ![0, 0] (⟨2, ![972, 128]⟩ : Shape)) (hu : 0 < S_.numel)
    (hs : S100000x972.Slices ![0, 588] S100000x384) :
    scaledProduct (N := 100000) (K := 972) (D := 128) X
        (pad (⟨2, ![972, 128]⟩ : Shape) ![588, 0] ![0, 0] ![0, 0] W (sitofp (F := Ideal) .f32 (constantI S_ 32 0#32)) hp hu) (shapeCast (⟨2, ![100000, 1]⟩ : Shape) s hsc)
      = scaleRows (Host.dotGeneral dot_S100000x384_S384x128_S100000x128_1_0_0_1_n_n none
          (extractStridedSlice S100000x384 ![0, 588] X hs) W) s := by
  funext i
  obtain ⟨n, d, rfl⟩ : ∃ (n : Fin 100000) (d : Fin 128), i = ix2 n d := ⟨i 0, i 1, eq_ix2 i⟩
  rw [scaledProduct_apply, scaleRows_apply]
  refine congrArg₂ (· * ·) ?_ (shapeCast_a_a1_apply s hsc n 0)
  rw [dotOne_apply]
  refine (Fin.sum_univ_add (a := 588) (b := 384) (fun q : Fin (588 + 384) => X (ix2 n q)
    * pad (⟨2, ![972, 128]⟩ : Shape) ![588, 0] ![0, 0] ![0, 0] W (sitofp (F := Ideal) .f32 (constantI S_ 32 0#32)) hp hu (ix2 q d))).trans ?_
  rw [Finset.sum_eq_zero (fun i _ => by rw [padded_low W hp hu i d, mul_zero]), zero_add]
  exact Finset.sum_congr rfl fun k _ => by rw [padded_high W hp hu k d, sliced_columns X hs n k]

end Cert.Bridge

end
-- ==== Proof.Agree.lean ====
/-
  The two idealized programs compute one function of the arguments.

  The reference's result is its operations' composed term. Its two graph-convolution layers are rewritten, inside that term,
  from the per-edge normalisation to the per-node one (the layer identity), and each layer's `dot_general` with its rows scaled
  is read as the row-scaled product the corresponding pallas region computes (for the first layer: over the full feature width
  against the zero-padded weights, which is the sum over the sliced features). The kernel's result is the last boundary's
  contents at the result buffer: unfolding the host stretches, each region's output array being the row-scaled product of what
  the region found, gives the same term. The decode (two row gathers of the second layer's output, their product, a row sum)
  and the index and degree computations are the same operations on both sides and are never opened.
-/
import proofs.«134513_j51453708206756_2_alg».proof.Proof.KernelWalk
import proofs.«134513_j51453708206756_2_alg».proof.Proof.LayerRef
import proofs.«134513_j51453708206756_2_alg».proof.Proof.MatmulBridge
import proofs.«134513_j51453708206756_2_alg».proof.Proof.RefRun

set_option maxRecDepth 16384

noncomputable section

namespace Cert.Proof.Agree

open Cert.KernelIdeal Cert.KernelIdeal.Gen Cert.KernelIdeal.Walk
open Idealize.ShloMosaic Idealize.ShloMosaic.TcCoe Idealize.SL.Sem Idealize.ShloMosaic.StableHlo

set_option maxHeartbeats 8000000 in
theorem values_agree (m : (ℓ : Loc nD τ sig) → Buf (Elt Ideal) ℓ) (ρ : Dev nD → PrngReg) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.ValueP.res_main_v115 (F := Ideal) m' c = W9 m ρ c (Proc.devRef .tc main_v71) := by
  unfold Cert.ReferenceIdeal.ValueP.res_main_v115
  rw [Cert.Bridge.layer_one, ← Cert.Bridge.product_one _ _ _ (by decide) (by decide) (by decide) _,
    Cert.Bridge.layer_two, ← Cert.Bridge.product_two _ _ _ (by decide)]
  rw [h0, h1, h2, h3, h4, h5, h6]
  show _ = StableHlo.after hostOps2 (W8 m ρ c) (Proc.devRef .tc main_v71)
  after_results_simp
  rw [exit1_out, exit1_v3, exit1_v6, exit1_v14, exit1_arg6, exit1_arg2]
  rw [mid_v34]
  after_results_simp
  rw [exit0_out, exit0_v3, exit0_v6, exit0_v14, exit0_arg2, exit0_arg4, exit0_arg5, exit0_arg6, exit0_v15]
  rw [entry_v3, entry_v6, entry_v14, entry_v15', entry_v16, entry_arg0, entry_arg2, entry_arg4, entry_arg5, entry_arg6]
  rfl

end Cert.Proof.Agree

end
-- ==== Proof.lean ====
/-
  A two-layer graph convolution with a dot-product decoder: the kernel against its reference, on the extended reals.

  Both programs compute, for a node table `x : [100000, 972]`, a directed edge list with self loops added, and label edges,
      deg[c]  = number of edges ending at c,        dinv = deg^(-1/2) where deg > 0, else 0,
      layer(h, W, b)[c] = Σ_{e ends at c} (h W)[row e] · dinv[row e] · dinv[c] + b,
      z = layer(relu(layer(x[:, 588:], W1, b1)), W2, b2),        logits[l] = Σ_k z[i_l, k] · z[j_l, k].
  The reference multiplies every message by `dinv[row e] · dinv[col e]` before the segment sum. The kernel computes `(h W) · dinv`
  row by row in a pallas region (for the first layer over all 972 features against `W1` padded with 588 zero rows, instead of
  slicing `x`), sums the scaled rows over the edges, and multiplies the sum by `dinv[c]`. The two agree at the ideal instance:
  `dinv[c]` is a non-negative real, and such a factor distributes over any finite sum of extended reals; a zero weight kills its
  term whatever the feature is. No finiteness of the inputs is used: the precondition is never opened.

  The frames of the two kernel programs are the generated ones; the reference's frame is its run with the result dropped.
  No operation was rewritten by the idealization, so `preserves` is trivial.
-/
import proofs.«134513_j51453708206756_2_alg».proof.Defs
import proofs.«134513_j51453708206756_2_alg».proof.Proof.Gen.Kernel
import proofs.«134513_j51453708206756_2_alg».proof.Proof.Gen.Kernel.Skeleton
import proofs.«134513_j51453708206756_2_alg».proof.Proof.Gen.Kernel.Launch
import proofs.«134513_j51453708206756_2_alg».proof.Proof.Gen.Kernel.Points
import proofs.«134513_j51453708206756_2_alg».proof.Proof.Gen.Kernel.Frame
import proofs.«134513_j51453708206756_2_alg».proof.Proof.Gen.KernelIdeal
import proofs.«134513_j51453708206756_2_alg».proof.Proof.Gen.KernelIdeal.Skeleton
import proofs.«134513_j51453708206756_2_alg».proof.Proof.Gen.KernelIdeal.Launch
import proofs.«134513_j51453708206756_2_alg».proof.Proof.Gen.KernelIdeal.Points
import proofs.«134513_j51453708206756_2_alg».proof.Proof.Gen.KernelIdeal.Frame
import proofs.«134513_j51453708206756_2_alg».proof.Proof.Gen.ReferenceIdeal
import proofs.«134513_j51453708206756_2_alg».proof.Proof.Gen.Pre_finite_inputs
import proofs.«134513_j51453708206756_2_alg».proof.Proof.KernelRun
import proofs.«134513_j51453708206756_2_alg».proof.Proof.RefRun
import proofs.«134513_j51453708206756_2_alg».proof.Proof.Agree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both idealized programs run, and the kernel's result buffer ends at the reference's
    result term: the two are one function of the arguments (`Agree.values_agree`). -/
theorem algebraic : Cert.algebraic_KernelIdeal_ReferenceIdeal := by
  intro m ρ m' ρ' _ hagree
  refine ⟨fun c => Cert.KernelIdeal.Gen.W9 m ρ c (Proc.devRef .tc Cert.KernelIdeal.main_v71),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  exact Cert.Proof.Agree.values_agree m ρ c m' h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
